-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x1 : Shape := ⟨2, ![1600000, 1]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg12 : FVec F S40 .f32) (main_v48 : IVec S_ 1) (main_v49 : FVec F S128x40 .f32) (main_v50 : FVec F S128x40 .f32) : IVec S_ 1 :=
  let main_v51 : IVec S128x40 1 := cmpf .olt main_v49 main_v50
  let main_c_19 : IVec S_ 1 := constantI S_ 1 1#1
  let main_v52 : IVec S_ 1 := (fun x v => Host.reduce IntOp.andi x v reducesTo_S128x40_S_d0_1 h_S_) main_v51 main_c_19
  let main_v53 : IVec S_ 1 := andi main_v48 main_v52
  let main_v54 : FVec F S40 .f32 := Host.absf main_arg12
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  main_v58

def fn_part2 {F : FTy → Type} [FloatOps F] (main_arg8 : FVec F S3x128 .f32) (main_arg9 : FVec F S128x128 .f32) (main_arg10 : FVec F S128 .f32) (main_arg11 : FVec F S128x40 .f32) (main_arg12 : FVec F S40 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x40 .f32 := Host.absf main_arg11
  let main_cst_18 : FVec F S_ .f32 := constant S_ .f32 0x7F800000#32
  let main_v50 : FVec F S128x40 .f32 := broadcastInDim S128x40 ![] bcast_S_S128x40 main_cst_18
  fn_part3 (F := F) main_arg12 main_v48 main_v49 main_v50

def fn_part1 {F : FTy → Type} [FloatOps F] (main_arg5 : FVec F S128x128 .f32) (main_arg6 : FVec F S128 .f32) (main_arg7 : FVec F S3x128x128 .f32) (main_arg8 : FVec F S3x128 .f32) (main_arg9 : FVec F S128x128 .f32) (main_arg10 : FVec F S128 .f32) (main_arg11 : FVec F S128x40 .f32) (main_arg12 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg7
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x1600000 32) (main_arg2 : FVec F S1600000x1 .f32) (main_arg3 : FVec F S128x128 .f32) (main_arg4 : FVec F S128 .f32) (main_arg5 : FVec F S128x128 .f32) (main_arg6 : FVec F S128 .f32) (main_arg7 : FVec F S3x128x128 .f32) (main_arg8 : FVec F S3x128 .f32) (main_arg9 : FVec F S128x128 .f32) (main_arg10 : FVec F S128 .f32) (main_arg11 : FVec F S128x40 .f32) (main_arg12 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S1600000x1 : Shape := ⟨2, ![1600000, 1]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S1x128 : Shape := ⟨2, ![1, 128]⟩
abbrev S5000x128 : Shape := ⟨2, ![5000, 128]⟩
abbrev S1x1600000 : Shape := ⟨2, ![1, 1600000]⟩
abbrev S1600000 : Shape := ⟨1, ![1600000]⟩
abbrev S_ : Shape := ⟨0, ![]⟩
abbrev S1600000x128 : Shape := ⟨2, ![1600000, 128]⟩
abbrev S1x128x128 : Shape := ⟨3, ![1, 128, 128]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 86
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x1, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S3x128x128, .f32⟩
  | .hbm, ⟨8, _⟩ => ⟨S3x128, .f32⟩
  | .hbm, ⟨9, _⟩ => ⟨S128x128, .f32⟩
  | .hbm, ⟨10, _⟩ => ⟨S128, .f32⟩
  | .hbm, ⟨11, _⟩ => ⟨S128x40, .f32⟩
  | .hbm, ⟨12, _⟩ => ⟨S40, .f32⟩
  | .hbm, ⟨13, _⟩ => ⟨S1x128, .f32⟩
  | .hbm, ⟨14, _⟩ => ⟨S1x128, .f32⟩
  | .hbm, ⟨15, _⟩ => ⟨S100000x128, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S1600000x128, .f32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S1x128x128, .f32⟩
  | .hbm, ⟨36, _⟩ => ⟨S128x128, .f32⟩
  | .hbm, ⟨37, _⟩ => ⟨S1x128, .f32⟩
  | .hbm, ⟨38, _⟩ => ⟨S128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S1x128x128, .f32⟩
  | .hbm, ⟨57, _⟩ => ⟨S128x128, .f32⟩
  | .hbm, ⟨58, _⟩ => ⟨S1x128, .f32⟩
  | .hbm, ⟨59, _⟩ => ⟨S128, .f32⟩
  | .hbm, ⟨60, _⟩ => ⟨S1x128, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S1600000x128, .f32⟩
  | .hbm, ⟨72, _⟩ => ⟨S1600000x128, .f32⟩
  | .hbm, ⟨73, _⟩ => ⟨S_, .f32⟩
  | .hbm, ⟨74, _⟩ => ⟨S100000x128, .f32⟩
  | .hbm, ⟨75, _⟩ => ⟨S1600000x1, .i32⟩
  | .hbm, ⟨76, _⟩ => ⟨S100000x128, .f32⟩
  | .hbm, ⟨77, _⟩ => ⟨S1x128x128, .f32⟩
  | .hbm, ⟨78, _⟩ => ⟨S128x128, .f32⟩
  | .hbm, ⟨79, _⟩ => ⟨S1x128, .f32⟩
  | .hbm, ⟨80, _⟩ => ⟨S128, .f32⟩
  | .hbm, ⟨81, _⟩ => ⟨S1x128, .f32⟩
  | .hbm, ⟨82, _⟩ => ⟨S100000x128, .f32⟩
  | .hbm, ⟨83, _⟩ => ⟨S1x128, .f32⟩
  | .hbm, ⟨84, _⟩ => ⟨S1x40, .f32⟩
  | .hbm, ⟨85, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S1x128, .f32⟩
  | .local _ .vmem, ⟨30, _⟩ => ⟨S128x40, .f32⟩
  | .local _ .vmem, ⟨31, _⟩ => ⟨S1x40, .f32⟩
  | .local _ .vmem, ⟨32, _⟩ => ⟨S5000x40, .f32⟩
  | .local _ .vmem, ⟨33, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_1 : Ref sig .tc := ⟨.hbm, 41, rfl⟩
abbrev main_v25 : Ref sig .tc := ⟨.hbm, 42, rfl⟩
abbrev main_v26 : Ref sig .tc := ⟨.hbm, 43, rfl⟩
abbrev main_c_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_4 : Ref sig .tc := ⟨.hbm, 62, rfl⟩
abbrev main_v43 : Ref sig .tc := ⟨.hbm, 63, rfl⟩
abbrev main_v44 : Ref sig .tc := ⟨.hbm, 64, rfl⟩
abbrev main_c_5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_6 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg5_0 : Ref sig .tc := ⟨.vmem, 32, rfl⟩
abbrev cc4_stg5_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem4_0 : DmaSem sig := 31
abbrev cc4_sem5_0 : DmaSem sig := 32
abbrev cc4_sem5_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x40 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x40 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x40 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x1600000_S1x1600000_1_0 : S2x1600000.Slices ![1, 0] S1x1600000
  shapeCasts_S1x1600000_S1600000 : S1x1600000.ShapeCasts S1600000
  slices_S2x1600000_S1x1600000_0_0 : S2x1600000.Slices ![0, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x40.size a ≤ S128x40.size a
  hwx4_3 : ∀ i : grid4.Coords, EltTy.bits .f32 = 32 ∨ (Rect.block (s := S128x40) S128x40.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x40.size a ≤ S1x40.size a
  hwx4_4 : ∀ i : grid4.Coords, EltTy.bits .f32 = 32 ∨ (Rect.block (s := S1x40) S1x40.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x40.size a ≤ S100000x40.size a
  hwx4_5 : ∀ i : grid4.Coords, EltTy.bits .f32 = 32 ∨ (Rect.block (s := S100000x40) S5000x40.size (cc4_transform_5 i) (hinb4_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v54) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v60) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S128x40.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v62) S1x40.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v63) S5000x40.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x1 : Shape := ⟨2, ![1600000, 1]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1600000x128 : Shape := ⟨2, ![1600000, 128]⟩
abbrev S1x128x128 : Shape := ⟨3, ![1, 128, 128]⟩
abbrev S100000x40 : Shape := ⟨2, ![100000, 40]⟩
abbrev S1x40 : Shape := ⟨2, ![1, 40]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x1, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S3x128x128, .f32⟩
  | .hbm, ⟨8, _⟩ => ⟨S3x128, .f32⟩
  | .hbm, ⟨9, _⟩ => ⟨S128x128, .f32⟩
  | .hbm, ⟨10, _⟩ => ⟨S128, .f32⟩
  | .hbm, ⟨11, _⟩ => ⟨S128x40, .f32⟩
  | .hbm, ⟨12, _⟩ => ⟨S40, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S100000x128, .f32⟩
  | .hbm, ⟨18, _⟩ => ⟨S1x128, .f32⟩
  | .hbm, ⟨19, _⟩ => ⟨S100000x128, .f32⟩
  | .hbm, ⟨20, _⟩ => ⟨S100000x128, .f32⟩
  | .hbm, ⟨21, _⟩ => ⟨S_, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S1600000x128, .f32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S1x128x128, .f32⟩
  | .hbm, ⟨47, _⟩ => ⟨S128x128, .f32⟩
  | .hbm, ⟨48, _⟩ => ⟨S100000x128, .f32⟩
  | .hbm, ⟨49, _⟩ => ⟨S1x128, .f32⟩
  | .hbm, ⟨50, _⟩ => ⟨S128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S1600000x128, .f32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S1x128x128, .f32⟩
  | .hbm, ⟨74, _⟩ => ⟨S128x128, .f32⟩
  | .hbm, ⟨75, _⟩ => ⟨S100000x128, .f32⟩
  | .hbm, ⟨76, _⟩ => ⟨S1x128, .f32⟩
  | .hbm, ⟨77, _⟩ => ⟨S128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x128, .f32⟩
  | .hbm, ⟨94, _⟩ => ⟨S1600000x128, .f32⟩
  | .hbm, ⟨95, _⟩ => ⟨S1600000x128, .f32⟩
  | .hbm, ⟨96, _⟩ => ⟨S_, .f32⟩
  | .hbm, ⟨97, _⟩ => ⟨S100000x128, .f32⟩
  | .hbm, ⟨98, _⟩ => ⟨S1600000x1, .i32⟩
  | .hbm, ⟨99, _⟩ => ⟨S100000x128, .f32⟩
  | .hbm, ⟨100, _⟩ => ⟨S1x128x128, .f32⟩
  | .hbm, ⟨101, _⟩ => ⟨S128x128, .f32⟩
  | .hbm, ⟨102, _⟩ => ⟨S100000x128, .f32⟩
  | .hbm, ⟨103, _⟩ => ⟨S1x128, .f32⟩
  | .hbm, ⟨104, _⟩ => ⟨S128, .f32⟩
  | .hbm, ⟨105, _⟩ => ⟨S1x128, .f32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S100000x128, .f32⟩
  | .hbm, ⟨110, _⟩ => ⟨S100000x128, .f32⟩
  | .hbm, ⟨111, _⟩ => ⟨S100000x128, .f32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S100000x128, .f32⟩
  | .hbm, ⟨116, _⟩ => ⟨S_, .f32⟩
  | .hbm, ⟨117, _⟩ => ⟨S100000x128, .f32⟩
  | .hbm, ⟨118, _⟩ => ⟨S100000x128, .f32⟩
  | .hbm, ⟨119, _⟩ => ⟨S100000x40, .f32⟩
  | .hbm, ⟨120, _⟩ => ⟨S1x40, .f32⟩
  | .hbm, ⟨121, _⟩ => ⟨S100000x40, .f32⟩
  | .hbm, ⟨122, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_cst : Ref sig .tc := ⟨.hbm, 28, rfl⟩
abbrev main_call1_v0 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call2_cst : Ref sig .tc := ⟨.hbm, 54, rfl⟩
abbrev main_call2_v0 : Ref sig .tc := ⟨.hbm, 55, rfl⟩
abbrev main_v34 : Ref sig .tc := ⟨.hbm, 56, rfl⟩
abbrev main_v35 : Ref sig .tc := ⟨.hbm, 57, rfl⟩
abbrev main_c_1 : Ref sig .tc := ⟨.hbm, 58, rfl⟩
abbrev main_v36 : Ref sig .tc := ⟨.hbm, 59, rfl⟩
abbrev main_v37 : Ref sig .tc := ⟨.hbm, 60, rfl⟩
abbrev main_c_2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_3 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call3_cst : Ref sig .tc := ⟨.hbm, 81, rfl⟩
abbrev main_call3_v0 : Ref sig .tc := ⟨.hbm, 82, rfl⟩
abbrev main_v56 : Ref sig .tc := ⟨.hbm, 83, rfl⟩
abbrev main_v57 : Ref sig .tc := ⟨.hbm, 84, rfl⟩
abbrev main_c_4 : Ref sig .tc := ⟨.hbm, 85, rfl⟩
abbrev main_v58 : Ref sig .tc := ⟨.hbm, 86, rfl⟩
abbrev main_v59 : Ref sig .tc := ⟨.hbm, 87, rfl⟩
abbrev main_c_5 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_6 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_call4_cst : Ref sig .tc := ⟨.hbm, 108, rfl⟩
abbrev main_call4_v0 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_call5_cst : Ref sig .tc := ⟨.hbm, 116, rfl⟩
abbrev main_call5_v0 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  slices_S2x1600000_S1x1600000_0_0 : S2x1600000.Slices ![0, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The kernel program's run with its result named.

  Every weakly fair execution of the program terminates without a fault; in the final state the result array holds
  the contents the last region leaves in it, and every argument array is as launched. The run is the program's
  ten segments (five stretches of host operations, five regions) through the several-regions launch theorem; the
  final state is read against the contents at the last segment boundary, at the result array as at each argument.
-/
import proofs.«134437_j58720792871767_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments as launched. -/
theorem run_result : θ_run defs (onTc (τ := τ) (main (F := F))) ⟨m, fun _ => 0, ρ⟩ (fun r => ∀ c : Dev nD,
      r.2.mem ((c.tc : Thread nD τ).loc main_v63) = W10 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v63 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end Cert.KernelIdeal.Run

end
-- ==== Proof.LibDenseRows.lean ====
/-
  A dense layer acts on a matrix one row at a time.

  For a matrix A (m rows of k entries), a weight matrix W (k by n) and a bias laid as a one-row matrix B (1 by n),
  row p of  A·W + B  is the affine image  a ↦ a·W + B  of row p of A, and nothing else of A enters it. The same
  holds after clamping at zero, after a second such layer, and after adding the input row back. So each dense
  stage of the network is a function of one row applied to every row, and a block of consecutive rows of the
  result is that function applied to the same rows of the input.

  Two spellings of one affine layer are read here at row p and column q:
  * a product accumulated into a zero matrix, plus the one-row bias copied down the rows by aligning trailing axes;
  * a plain product, plus the one-row bias copied down the rows by naming the axes.
  Both are  ∑ c, A(p, c) · W(c, q) + B(0, q): the accumulator is the extended real 0 and 0 + x = x, so no
  finiteness is used. A vector laid as a one-row matrix is the same matrix whether it is recast or broadcast.
-/
import Idealize.ShloMosaic.Lib.StackMember
import Idealize.ShloMosaic.Lib.KernelVsHost
import Idealize.ShloMosaic.Lib.ValueLayout
import Idealize.ShloMosaic.PureOps.Ideal.Laws

noncomputable section

namespace DenseRows

open Idealize.ShloMosaic Idealize.ShloMosaic.ValueIdx Idealize.ShloMosaic.StackMember

variable {m k n : Nat}

/-- A matrix of extended reals, entry by entry. -/
abbrev Mat (m n : Nat) := (⟨2, ![m, n]⟩ : Shape).Idx → EReal

/-- Row p of a matrix. -/
def row (A : Mat m k) (p : Fin m) : Fin k → EReal := fun c => A (ix2 p c)

/-- The affine image of one row: a·W + B, with B a one-row matrix. -/
def affine (W : Mat k n) (B : Mat 1 n) (a : Fin k → EReal) : Fin n → EReal :=
  fun q => (∑ c : Fin k, a c * W (ix2 c q)) + B (ix2 (0 : Fin 1) q)

/-- A row clamped below at the zero word's value. -/
def clamp (v : Fin n → EReal) : Fin n → EReal := fun q => max (v q) (Ideal.ofBits .f32 0x00000000#32)

/-- A function of one row applied to every row of a matrix. -/
def onRows (f : (Fin k → EReal) → Fin n → EReal) (A : Mat m k) : Mat m n := fun i => f (row A (i 0)) (i 1)

theorem onRows_apply (f : (Fin k → EReal) → Fin n → EReal) (A : Mat m k) (p : Fin m) (q : Fin n) :
    onRows f A (ix2 p q) = f (row A p) q := rfl

variable {α : Type}

/-- A one-row matrix copied down m rows by aligning trailing axes: at (p, q) it is the row's entry q. -/
theorem broadcastTo_oneRow_apply (B : (⟨2, ![1, n]⟩ : Shape).Idx → α)
    (h : (⟨2, ![1, n]⟩ : Shape).Broadcasts ⟨2, ![m, n]⟩) (p : Fin m) (q : Fin n) :
    broadcastTo ⟨2, ![m, n]⟩ B h (ix2 p q) = B (ix2 (0 : Fin 1) q) := by
  refine broadcastTo_apply B h (ix2 p q) (ix2 (0 : Fin 1) q) fun ax => ?_
  match ax with
  | ⟨0, _⟩ => rfl
  | ⟨1, _⟩ =>
    show q.val = if n = 1 then 0 else q.val
    split
    · have := q.isLt; omega
    · rfl

/-- A vector recast as a one-row matrix is the vector broadcast along axis 1 of a one-row matrix. -/
theorem shapeCast_row_eq_broadcastInDim (b : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ b h1 = broadcastInDim ⟨2, ![1, n]⟩ ![1] hd b := by
  funext i
  obtain ⟨u, q, rfl⟩ : ∃ (u : Fin 1) (q : Fin n), i = ix2 u q := ⟨i 0, i 1, eq_ix2 i⟩
  have e1 := shapeCast_apply b h1 (ix2 u q) (ix1 q) (by
    rw [Shape.rowMajor_val_two, Shape.rowMajor_val_one]
    show q.val = u.val * n + q.val
    have := u.isLt; have hu : u.val = 0 := by omega
    rw [hu]; omega)
  have e2 := broadcastInDim_apply ![1] hd b (ix2 u q) (ix1 q) (by
    intro a
    match a with
    | ⟨0, _⟩ =>
      show q.val = if n = 1 then 0 else q.val
      split
      · have := q.isLt; omega
      · rfl)
  exact e1.trans e2.symm

/-- One affine layer in the accumulating spelling, on m rows: at (p, q) it is the affine image of row p. -/
theorem matmul_bias_apply {φ₁ φ₂ : FTy} (prec : Option ContractPrecision)
    (X : FVec Ideal ⟨2, ![m, k]⟩ φ₁) (W : FVec Ideal ⟨2, ![k, n]⟩ φ₂) (B : FVec Ideal ⟨2, ![1, n]⟩ .f32)
    (hb : (⟨2, ![1, n]⟩ : Shape).Broadcasts ⟨2, ![m, n]⟩) (p : Fin m) (q : Fin n) :
    addf (matmul (DotDims.plain m k n) prec X W (constant (F := Ideal) ⟨2, ![m, n]⟩ .f32 0x00000000#32))
        (broadcastTo ⟨2, ![m, n]⟩ B hb) (ix2 p q)
      = affine (n := n) W B (row (k := k) X p) q := by
  show matmul (DotDims.plain m k n) prec X W (constant (F := Ideal) ⟨2, ![m, n]⟩ .f32 0x00000000#32) (ix2 p q)
      + broadcastTo ⟨2, ![m, n]⟩ B hb (ix2 p q) = (∑ c : Fin k, X (ix2 p c) * W (ix2 c q)) + B (ix2 (0 : Fin 1) q)
  rw [matmul_zero_eq_dotGeneral, dotGeneral_plain_apply, broadcastTo_oneRow_apply]

/-- One affine layer in the plain spelling, on m rows: at (p, q) it is the affine image of row p. -/
theorem dot_bias_apply {φ₁ φ₂ : FTy} (prec : Option ContractPrecision)
    (A : FVec Ideal ⟨2, ![m, k]⟩ φ₁) (W : FVec Ideal ⟨2, ![k, n]⟩ φ₂) (B : FVec Ideal ⟨2, ![1, n]⟩ .f32)
    (hbc : (⟨2, ![1, n]⟩ : Shape).BroadcastsInDim ⟨2, ![m, n]⟩ ![0, 1]) (p : Fin m) (q : Fin n) :
    addf (Host.dotGeneral (DotDims.plain m k n) prec A W) (broadcastInDim ⟨2, ![m, n]⟩ ![0, 1] hbc B) (ix2 p q)
      = affine (n := n) W B (row (k := k) A p) q := by
  show Host.dotGeneral (DotDims.plain m k n) prec A W (ix2 p q) + broadcastInDim ⟨2, ![m, n]⟩ ![0, 1] hbc B (ix2 p q)
      = (∑ c : Fin k, A (ix2 p c) * W (ix2 c q)) + B (ix2 (0 : Fin 1) q)
  rw [dotGeneral_plain_apply, broadcastInDim_oneRow_apply]

/-- One clamped affine layer in the accumulating spelling: at (p, q) the clamped affine image of row p. -/
theorem clamped_matmul_bias_apply {φ₁ φ₂ : FTy} (prec : Option ContractPrecision)
    (X : FVec Ideal ⟨2, ![m, k]⟩ φ₁) (W : FVec Ideal ⟨2, ![k, n]⟩ φ₂) (B : FVec Ideal ⟨2, ![1, n]⟩ .f32)
    (hb : (⟨2, ![1, n]⟩ : Shape).Broadcasts ⟨2, ![m, n]⟩) (p : Fin m) (q : Fin n) :
    maximumf (addf (matmul (DotDims.plain m k n) prec X W (constant (F := Ideal) ⟨2, ![m, n]⟩ .f32 0x00000000#32))
        (broadcastTo ⟨2, ![m, n]⟩ B hb)) (broadcast ⟨2, ![m, n]⟩ (Scalar.ofBits (F := Ideal) .f32 0x00000000#32)) (ix2 p q)
      = clamp (affine (n := n) W B (row (k := k) X p)) q := by
  show max (addf (matmul (DotDims.plain m k n) prec X W (constant (F := Ideal) ⟨2, ![m, n]⟩ .f32 0x00000000#32))
        (broadcastTo ⟨2, ![m, n]⟩ B hb) (ix2 p q)) (Ideal.ofBits .f32 0x00000000#32) = _
  rw [matmul_bias_apply]
  rfl

/-- Row p of one clamped affine layer in the accumulating spelling, whatever float format it is then read at. -/
theorem row_clamped_matmul_bias {φ₁ φ₂ : FTy} (prec : Option ContractPrecision)
    (X : FVec Ideal ⟨2, ![m, k]⟩ φ₁) (W : FVec Ideal ⟨2, ![k, n]⟩ φ₂) (B : FVec Ideal ⟨2, ![1, n]⟩ .f32)
    (hb : (⟨2, ![1, n]⟩ : Shape).Broadcasts ⟨2, ![m, n]⟩) (p : Fin m) :
    row (m := m) (k := n) (maximumf (addf (matmul (DotDims.plain m k n) prec X W (constant (F := Ideal) ⟨2, ![m, n]⟩ .f32 0x00000000#32))
        (broadcastTo ⟨2, ![m, n]⟩ B hb)) (broadcast ⟨2, ![m, n]⟩ (Scalar.ofBits (F := Ideal) .f32 0x00000000#32))) p
      = clamp (affine (n := n) W B (row (k := k) X p)) :=
  funext fun q => clamped_matmul_bias_apply prec X W B hb p q

/-- One clamped affine layer in the plain spelling, clamped against a broadcast zero constant: at (p, q) the
    clamped affine image of row p. -/
theorem clamped_dot_bias_apply {φ₁ φ₂ : FTy} (prec : Option ContractPrecision)
    (A : FVec Ideal ⟨2, ![m, k]⟩ φ₁) (W : FVec Ideal ⟨2, ![k, n]⟩ φ₂) (B : FVec Ideal ⟨2, ![1, n]⟩ .f32)
    (hbc : (⟨2, ![1, n]⟩ : Shape).BroadcastsInDim ⟨2, ![m, n]⟩ ![0, 1])
    (hz : (⟨0, ![]⟩ : Shape).BroadcastsInDim ⟨2, ![m, n]⟩ ![]) (p : Fin m) (q : Fin n) :
    maximumf (addf (Host.dotGeneral (DotDims.plain m k n) prec A W) (broadcastInDim ⟨2, ![m, n]⟩ ![0, 1] hbc B))
        (broadcastInDim ⟨2, ![m, n]⟩ ![] hz (constant (F := Ideal) ⟨0, ![]⟩ .f32 0x00000000#32)) (ix2 p q)
      = clamp (affine (n := n) W B (row (k := k) A p)) q := by
  show max (addf (Host.dotGeneral (DotDims.plain m k n) prec A W) (broadcastInDim ⟨2, ![m, n]⟩ ![0, 1] hbc B) (ix2 p q))
      (Ideal.ofBits .f32 0x00000000#32) = _
  rw [dot_bias_apply]
  rfl

/-! ## The three kinds of stage, as functions of one row -/

/-- Two clamped affine layers: the encoder. -/
def encoderRow {k h n : Nat} (W0 : Mat k h) (B0 : Mat 1 h) (W1 : Mat h n) (B1 : Mat 1 n) (a : Fin k → EReal) : Fin n → EReal :=
  clamp (affine W1 B1 (clamp (affine W0 B0 a)))

/-- One clamped affine layer with the input row added back: a hop's update. -/
def hopRow {k : Nat} (W : Mat k k) (B : Mat 1 k) (a : Fin k → EReal) : Fin k → EReal :=
  fun q => clamp (affine W B a) q + a q

/-- A clamped affine layer followed by a plain affine layer: the decoder. -/
def decoderRow {k h n : Nat} (W0 : Mat k h) (B0 : Mat 1 h) (W1 : Mat h n) (B1 : Mat 1 n) (a : Fin k → EReal) : Fin n → EReal :=
  affine W1 B1 (clamp (affine W0 B0 a))

end DenseRows

end
-- ==== Proof.BlockPayloads.lean ====
/-
  What each kernel body stores, read at row p and column q of its block.

  The encoder body stores two clamped affine layers of the block of input rows; each hop body stores one clamped
  affine layer of its block plus the block itself; the decoder body stores a clamped affine layer followed by a
  plain one. A change of float format is the identity on extended reals and a cast to the same shape changes
  nothing, so at (p, q) each stored value is the stage's row function of row p of the block of inputs: no other
  row of the block enters it.
-/
import proofs.«134437_j58720792871767_1_alg».proof.Proof.Gen.KernelIdeal.Skeleton
import proofs.«134437_j58720792871767_1_alg».proof.Proof.LibDenseRows
import Idealize.ShloMosaic.Lib.Pipeline.Value

noncomputable section

namespace Cert.KernelIdeal.Payloads

open Cert.KernelIdeal Cert.KernelIdeal.Gen Idealize.ShloMosaic Idealize.ShloMosaic.ValueIdx DenseRows

/-- The printed product of a 5000×128 block with a 128×128 matrix is the plain one. -/
theorem dot128_plain : dot_S5000x128_S128x128_S5000x128_1_0_0_1_n_n = DotDims.plain 5000 128 128 := rfl

/-- The printed product of a 5000×128 block with a 128×40 matrix is the plain one. -/
theorem dot40_plain : dot_S5000x128_S128x40_S5000x40_1_0_0_1_n_n = DotDims.plain 5000 128 40 := rfl

/-- The hop body's stored value at (p, q): the hop's row function of row p of the block. -/
theorem hop_apply (x0 : Vec Ideal S5000x128 .f32) (x1 : Vec Ideal S128x128 .f32) (x2 : Vec Ideal S1x128 .f32)
    (p : Fin 5000) (q : Fin 128) :
    k1_pay1 (F := Ideal) x0 x1 x2 (ix2 p q) = hopRow x1 x2 (row x0 p) q := by
  unfold k1_pay1
  simp only [shapeCast_self]
  show max (addf (matmul dot_S5000x128_S128x128_S5000x128_1_0_0_1_n_n none (truncf .bf16 x0 bitsLt_bf16_f32)
        (truncf .bf16 x1 bitsLt_bf16_f32) (constant S5000x128 .f32 0x00000000#32))
      (broadcastTo S5000x128 x2 broadcasts_S1x128_S5000x128) (ix2 p q)) (Ideal.ofBits .f32 0x00000000#32) + x0 (ix2 p q) = _
  rw [dot128_plain]
  rw [matmul_bias_apply]
  rfl

/-- The three hop bodies are one text. -/
theorem hop2_eq : @k2_pay1 Ideal _ = @k1_pay1 Ideal _ := rfl
theorem hop3_eq : @k3_pay1 Ideal _ = @k1_pay1 Ideal _ := rfl

/-- The encoder body's stored value at (p, q): the encoder's row function of row p of the block. -/
theorem encoder_apply (x0 : Vec Ideal S5000x128 .f32) (x1 : Vec Ideal S128x128 .f32) (x2 : Vec Ideal S1x128 .f32)
    (x3 : Vec Ideal S128x128 .f32) (x4 : Vec Ideal S1x128 .f32) (p : Fin 5000) (q : Fin 128) :
    k0_pay1 (F := Ideal) x0 x1 x2 x3 x4 (ix2 p q) = encoderRow x1 x2 x3 x4 (row x0 p) q := by
  unfold k0_pay1
  simp only [shapeCast_self]
  rw [dot128_plain]
  have inner := row_clamped_matmul_bias none (truncf .bf16 x0 bitsLt_bf16_f32) (truncf .bf16 x1 bitsLt_bf16_f32) x2
    broadcasts_S1x128_S5000x128 p
  refine (clamped_matmul_bias_apply none _ _ x4 broadcasts_S1x128_S5000x128 p q).trans ?_
  rw [show row (m := 5000) (k := 128) (truncf .bf16 (maximumf (addf (matmul (DotDims.plain 5000 128 128) none
      (truncf .bf16 x0 bitsLt_bf16_f32) (truncf .bf16 x1 bitsLt_bf16_f32) (constant (F := Ideal) S5000x128 .f32 0x00000000#32))
      (broadcastTo S5000x128 x2 broadcasts_S1x128_S5000x128)) (broadcast S5000x128 (Scalar.ofBits (F := Ideal) .f32 0x00000000#32)))
      bitsLt_bf16_f32) p = clamp (affine x1 x2 (row x0 p)) from inner]
  rfl

/-- The decoder body's stored value at (p, q): the decoder's row function of row p of the block. -/
theorem decoder_apply (x0 : Vec Ideal S5000x128 .f32) (x1 : Vec Ideal S128x128 .f32) (x2 : Vec Ideal S1x128 .f32)
    (x3 : Vec Ideal S128x40 .f32) (x4 : Vec Ideal S1x40 .f32) (p : Fin 5000) (q : Fin 40) :
    k4_pay1 (F := Ideal) x0 x1 x2 x3 x4 (ix2 p q) = decoderRow x1 x2 x3 x4 (row x0 p) q := by
  unfold k4_pay1
  simp only [shapeCast_self]
  rw [dot128_plain, dot40_plain]
  have inner := row_clamped_matmul_bias none (truncf .bf16 x0 bitsLt_bf16_f32) (truncf .bf16 x1 bitsLt_bf16_f32) x2
    broadcasts_S1x128_S5000x128 p
  refine (matmul_bias_apply none _ _ x4 broadcasts_S1x40_S5000x40 p q).trans ?_
  rw [show row (m := 5000) (k := 128) (truncf .bf16 (maximumf (addf (matmul (DotDims.plain 5000 128 128) none
      (truncf .bf16 x0 bitsLt_bf16_f32) (truncf .bf16 x1 bitsLt_bf16_f32) (constant (F := Ideal) S5000x128 .f32 0x00000000#32))
      (broadcastTo S5000x128 x2 broadcasts_S1x128_S5000x128)) (broadcast S5000x128 (Scalar.ofBits (F := Ideal) .f32 0x00000000#32)))
      bitsLt_bf16_f32) p = clamp (affine x1 x2 (row x0 p)) from inner]
  rfl

end Cert.KernelIdeal.Payloads

end
-- ==== Proof.EncoderBlocks.lean ====
/-
  The encoder region, from blocks to the whole array.

  The grid has 20 points; point t stages rows 5000·t … 5000·t + 4999 of the node features, the two weight matrices
  and the two one-row biases whole, and writes back rows 5000·t … 5000·t + 4999 of the result. The body's stored
  value at row p of its block is the encoder's row function of row p of the staged block, which is row 5000·t + p
  of the node features; so what point t writes back is block t of ONE array, the encoder's row function applied to
  every row of the node features. The 20 blocks tile the 100000 rows, so that array is what the region leaves.
  Everything is stated at arbitrary contents V of the buffers when the region is entered.
-/
import proofs.«134437_j58720792871767_1_alg».proof.Proof.Gen.KernelIdeal.Frame
import proofs.«134437_j58720792871767_1_alg».proof.Proof.BlockPayloads
import Idealize.ShloMosaic.Lib.Pipeline.Value

noncomputable section

namespace Cert.KernelIdeal.EncoderBlocks

open Cert.KernelIdeal Cert.KernelIdeal.Gen Idealize.ShloMosaic Idealize.ShloMosaic.TcCoe Idealize.SL.Sem
open Idealize.ShloMosaic.ValueIdx DenseRows
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The array the region leaves: the encoder's row function on every row of the node features. -/
def encoded (c : Dev nD) : S100000x128.Idx → Elt Ideal .f32 :=
  onRows (encoderRow (V c main_arg3) (V c main_v0) (V c main_arg5) (V c main_v1)) (V c main_arg0)

/-- The printed index maps over the 20 points: the node-feature window and the result window move together down
    the rows, every other window stays on its one block. -/
theorem block_indices : ∀ t : Fin cfg0.N, win0_0.index t (0 : Fin 2) = win0_5.index t (0 : Fin 2)
    ∧ win0_5.index t (0 : Fin 2) ≤ 19
    ∧ win0_0.index t (1 : Fin 2) = 0 ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every block of rows is some point's. -/
theorem block_onto : ∀ q0 : Fin 20, ∃ t : Fin cfg0.N, win0_5.index t = ![q0.val, 0] :=
  (by decide +kernel : ∀ q0 : Fin 20, ∃ t : Fin grid0.N, win0_5.index t = ![q0.val, 0])

/-- What point t writes back is block t of the encoded array. -/
theorem flushed_eq (c : Dev nD) (t : Fin cfg0.N) :
    (dat0 V c).flushed 5 t = ((cfg0.win 5).blk t).view.read (Elt Ideal) (encoded V c) := by
  show (cfg0.win 5).cut (grid0.coords t) ((dat0 V c).after 5 t) = _
  rw [after0_5]
  unfold out0_5
  rw [View.canon_unit_zero origin]
  simp only [View.ld_unit_zero (S := S5000x128) origin, View.ld_unit_zero (S := S128x128) origin,
    View.ld_unit_zero (S := S1x128) origin]
  obtain ⟨e0, eT, e01, e51, e10, e11, e20, e21, e30, e31, e40, e41⟩ := block_indices t
  have w1 : iblk0 V c 1 t = V c main_arg3 := by
    funext y
    show V c main_arg3 (((cfg0.win 1).blk t).view.emb y) = V c main_arg3 y
    refine congrArg (V c main_arg3) ?_
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  have w2 : iblk0 V c 2 t = V c main_v0 := by
    funext y
    show V c main_v0 (((cfg0.win 2).blk t).view.emb y) = V c main_v0 y
    refine congrArg (V c main_v0) ?_
    funext a; apply Fin.ext
    match a with
    | ⟨0, _⟩ => show win0_2.index t (0 : Fin 2) * 1 + 1 * (y 0).val = (y 0).val; omega
    | ⟨1, _⟩ => show win0_2.index t (1 : Fin 2) * 128 + 1 * (y 1).val = (y 1).val; omega
  have w3 : iblk0 V c 3 t = V c main_arg5 := by
    funext y
    show V c main_arg5 (((cfg0.win 3).blk t).view.emb y) = V c main_arg5 y
    refine congrArg (V c main_arg5) ?_
    funext a; apply Fin.ext
    match a with
    | ⟨0, _⟩ => show win0_3.index t (0 : Fin 2) * 128 + 1 * (y 0).val = (y 0).val; omega
    | ⟨1, _⟩ => show win0_3.index t (1 : Fin 2) * 128 + 1 * (y 1).val = (y 1).val; omega
  have w4 : iblk0 V c 4 t = V c main_v1 := by
    funext y
    show V c main_v1 (((cfg0.win 4).blk t).view.emb y) = V c main_v1 y
    refine congrArg (V c main_v1) ?_
    funext a; apply Fin.ext
    match a with
    | ⟨0, _⟩ => show win0_4.index t (0 : Fin 2) * 1 + 1 * (y 0).val = (y 0).val; omega
    | ⟨1, _⟩ => show win0_4.index t (1 : Fin 2) * 128 + 1 * (y 1).val = (y 1).val; omega
  funext j
  obtain ⟨p, q, rfl⟩ : ∃ (p : Fin 5000) (q : Fin 128), j = ix2 p q := ⟨j 0, j 1, eq_ix2 j⟩
  have hp : p.val < 5000 := p.isLt
  have hq : q.val < 128 := q.isLt
  have hP : win0_5.index t (0 : Fin 2) * 5000 + p.val < 100000 := by omega
  have rows : row (iblk0 V c 0 t) p = row (V c main_arg0) ⟨win0_5.index t (0 : Fin 2) * 5000 + p.val, hP⟩ := by
    funext k
    have hk : k.val < 128 := k.isLt
    show V c main_arg0 (((cfg0.win 0).blk t).view.emb (ix2 p k))
      = V c main_arg0 (ix2 (⟨win0_5.index t (0 : Fin 2) * 5000 + p.val, hP⟩ : Fin 100000) k)
    refine congrArg (V c main_arg0) ?_
    funext a; apply Fin.ext
    match a with
    | ⟨0, _⟩ => show win0_0.index t (0 : Fin 2) * 5000 + 1 * p.val = win0_5.index t (0 : Fin 2) * 5000 + p.val; omega
    | ⟨1, _⟩ => show win0_0.index t (1 : Fin 2) * 128 + 1 * k.val = k.val; omega
  have spot : ((cfg0.win 5).blk t).view.emb (ix2 p q)
      = ix2 (⟨win0_5.index t (0 : Fin 2) * 5000 + p.val, hP⟩ : Fin 100000) q := by
    funext a; apply Fin.ext
    match a with
    | ⟨0, _⟩ => show win0_5.index t (0 : Fin 2) * 5000 + 1 * p.val = win0_5.index t (0 : Fin 2) * 5000 + p.val; omega
    | ⟨1, _⟩ => show win0_5.index t (1 : Fin 2) * 128 + 1 * q.val = q.val; omega
  show k0_pay1 (iblk0 V c 0 t) (iblk0 V c 1 t) (iblk0 V c 2 t) (iblk0 V c 3 t) (iblk0 V c 4 t) (ix2 p q)
    = encoded V c (((cfg0.win 5).blk t).view.emb (ix2 p q))
  refine (Payloads.encoder_apply (iblk0 V c 0 t) (iblk0 V c 1 t) (iblk0 V c 2 t) (iblk0 V c 3 t) (iblk0 V c 4 t) p q).trans ?_
  rw [spot, rows, w1, w2, w3, w4]
  rfl

/-- An index of the array is in point t's block iff each coordinate is in the block's range on its axis. -/
theorem mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v2).slice (win0_5.rect t)).set ↔ _
  rw [View.set_slice_whole, Rect.mem_set_unit]
  exact Iff.rfl

/-- Every row of the array lies in some point's block: row r in block r / 5000. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := block_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- The result array after the region: the encoded array. -/
theorem final (c : Dev nD) : (dat0 V c).arrAt 5 cfg0.N = encoded V c :=
  (dat0 V c).arrAt_eq_of_cover 5 (encoded V c) (fun t _ => flushed_eq V c t) (covered)

end Cert.KernelIdeal.EncoderBlocks

end
-- ==== Proof.Hop1Blocks.lean ====
/-
  Hop 1's update region, from blocks to the whole array.

  Point t of the 20 stages rows 5000·t … 5000·t + 4999 of the aggregated messages, the hop's weight matrix and its
  one-row bias whole, and writes back the same rows of the result. The body's stored value at row p of its block is
  the hop's row function (one clamped affine layer plus the row itself) of row 5000·t + p of the aggregated
  messages, so point t writes back block t of that row function applied to every row, and the 20 blocks tile the
  100000 rows. Stated at arbitrary contents V of the buffers when the region is entered.
-/
import proofs.«134437_j58720792871767_1_alg».proof.Proof.Gen.KernelIdeal.Frame
import proofs.«134437_j58720792871767_1_alg».proof.Proof.BlockPayloads
import Idealize.ShloMosaic.Lib.Pipeline.Value

noncomputable section

namespace Cert.KernelIdeal.Hop1Blocks

open Cert.KernelIdeal Cert.KernelIdeal.Gen Idealize.ShloMosaic Idealize.ShloMosaic.TcCoe Idealize.SL.Sem
open Idealize.ShloMosaic.ValueIdx DenseRows
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The array the region leaves: the hop's row function on every row of the aggregated messages. -/
def updated (c : Dev nD) : S100000x128.Idx → Elt Ideal .f32 :=
  onRows (hopRow (V c main_v20) (V c main_v23)) (V c main_v18)

/-- The printed index maps over the 20 points: the message window and the result window move together down the
    rows, the weight and bias windows stay on their one block. -/
theorem block_indices : ∀ t : Fin cfg1.N, win1_0.index t (0 : Fin 2) = win1_3.index t (0 : Fin 2)
    ∧ win1_3.index t (0 : Fin 2) ≤ 19
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Every block of rows is some point's. -/
theorem block_onto : ∀ q0 : Fin 20, ∃ t : Fin cfg1.N, win1_3.index t = ![q0.val, 0] :=
  (by decide +kernel : ∀ q0 : Fin 20, ∃ t : Fin grid1.N, win1_3.index t = ![q0.val, 0])

/-- What point t writes back is block t of the updated array. -/
theorem flushed_eq (c : Dev nD) (t : Fin cfg1.N) :
    (dat1 V c).flushed 3 t = ((cfg1.win 3).blk t).view.read (Elt Ideal) (updated V c) := by
  show (cfg1.win 3).cut (grid1.coords t) ((dat1 V c).after 3 t) = _
  rw [after1_3]
  unfold out1_3
  rw [View.canon_unit_zero origin]
  simp only [View.ld_unit_zero (S := S5000x128) origin, View.ld_unit_zero (S := S128x128) origin,
    View.ld_unit_zero (S := S1x128) origin]
  obtain ⟨e0, eT, e01, e31, e10, e11, e20, e21⟩ := block_indices t
  have w1 : iblk1 V c 1 t = V c main_v20 := by
    funext y
    show V c main_v20 (((cfg1.win 1).blk t).view.emb y) = V c main_v20 y
    refine congrArg (V c main_v20) ?_
    funext a; apply Fin.ext
    match a with
    | ⟨0, _⟩ => show win1_1.index t (0 : Fin 2) * 128 + 1 * (y 0).val = (y 0).val; omega
    | ⟨1, _⟩ => show win1_1.index t (1 : Fin 2) * 128 + 1 * (y 1).val = (y 1).val; omega
  have w2 : iblk1 V c 2 t = V c main_v23 := by
    funext y
    show V c main_v23 (((cfg1.win 2).blk t).view.emb y) = V c main_v23 y
    refine congrArg (V c main_v23) ?_
    funext a; apply Fin.ext
    match a with
    | ⟨0, _⟩ => show win1_2.index t (0 : Fin 2) * 1 + 1 * (y 0).val = (y 0).val; omega
    | ⟨1, _⟩ => show win1_2.index t (1 : Fin 2) * 128 + 1 * (y 1).val = (y 1).val; omega
  funext j
  obtain ⟨p, q, rfl⟩ : ∃ (p : Fin 5000) (q : Fin 128), j = ix2 p q := ⟨j 0, j 1, eq_ix2 j⟩
  have hp : p.val < 5000 := p.isLt
  have hq : q.val < 128 := q.isLt
  have hP : win1_3.index t (0 : Fin 2) * 5000 + p.val < 100000 := by omega
  have rows : row (iblk1 V c 0 t) p = row (V c main_v18) ⟨win1_3.index t (0 : Fin 2) * 5000 + p.val, hP⟩ := by
    funext k
    have hk : k.val < 128 := k.isLt
    show V c main_v18 (((cfg1.win 0).blk t).view.emb (ix2 p k))
      = V c main_v18 (ix2 (⟨win1_3.index t (0 : Fin 2) * 5000 + p.val, hP⟩ : Fin 100000) k)
    refine congrArg (V c main_v18) ?_
    funext a; apply Fin.ext
    match a with
    | ⟨0, _⟩ => show win1_0.index t (0 : Fin 2) * 5000 + 1 * p.val = win1_3.index t (0 : Fin 2) * 5000 + p.val; omega
    | ⟨1, _⟩ => show win1_0.index t (1 : Fin 2) * 128 + 1 * k.val = k.val; omega
  have spot : ((cfg1.win 3).blk t).view.emb (ix2 p q)
      = ix2 (⟨win1_3.index t (0 : Fin 2) * 5000 + p.val, hP⟩ : Fin 100000) q := by
    funext a; apply Fin.ext
    match a with
    | ⟨0, _⟩ => show win1_3.index t (0 : Fin 2) * 5000 + 1 * p.val = win1_3.index t (0 : Fin 2) * 5000 + p.val; omega
    | ⟨1, _⟩ => show win1_3.index t (1 : Fin 2) * 128 + 1 * q.val = q.val; omega
  show k1_pay1 (iblk1 V c 0 t) (iblk1 V c 1 t) (iblk1 V c 2 t) (ix2 p q)
    = updated V c (((cfg1.win 3).blk t).view.emb (ix2 p q))
  refine (Payloads.hop_apply (iblk1 V c 0 t) (iblk1 V c 1 t) (iblk1 V c 2 t) p q).trans ?_
  rw [spot, rows, w1, w2]
  rfl

/-- An index of the array is in point t's block iff each coordinate is in the block's range on its axis. -/
theorem mem_block (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v24).slice (win1_3.rect t)).set ↔ _
  rw [View.set_slice_whole, Rect.mem_set_unit]
  exact Iff.rfl

/-- Every row of the array lies in some point's block: row r in block r / 5000. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := block_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- The result array after the region: the updated array. -/
theorem final (c : Dev nD) : (dat1 V c).arrAt 3 cfg1.N = updated V c :=
  (dat1 V c).arrAt_eq_of_cover 3 (updated V c) (fun t _ => flushed_eq V c t) (covered)

end Cert.KernelIdeal.Hop1Blocks

end
-- ==== Proof.Hop2Blocks.lean ====
/-
  Hop 2's update region, from blocks to the whole array.

  Point t of the 20 stages rows 5000·t … 5000·t + 4999 of the aggregated messages, the hop's weight matrix and its
  one-row bias whole, and writes back the same rows of the result. The body's stored value at row p of its block is
  the hop's row function (one clamped affine layer plus the row itself) of row 5000·t + p of the aggregated
  messages, so point t writes back block t of that row function applied to every row, and the 20 blocks tile the
  100000 rows. Stated at arbitrary contents V of the buffers when the region is entered.
-/
import proofs.«134437_j58720792871767_1_alg».proof.Proof.Gen.KernelIdeal.Frame
import proofs.«134437_j58720792871767_1_alg».proof.Proof.BlockPayloads
import Idealize.ShloMosaic.Lib.Pipeline.Value

noncomputable section

namespace Cert.KernelIdeal.Hop2Blocks

open Cert.KernelIdeal Cert.KernelIdeal.Gen Idealize.ShloMosaic Idealize.ShloMosaic.TcCoe Idealize.SL.Sem
open Idealize.ShloMosaic.ValueIdx DenseRows
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The array the region leaves: the hop's row function on every row of the aggregated messages. -/
def updated (c : Dev nD) : S100000x128.Idx → Elt Ideal .f32 :=
  onRows (hopRow (V c main_v38) (V c main_v41)) (V c main_v36)

/-- The printed index maps over the 20 points: the message window and the result window move together down the
    rows, the weight and bias windows stay on their one block. -/
theorem block_indices : ∀ t : Fin cfg2.N, win2_0.index t (0 : Fin 2) = win2_3.index t (0 : Fin 2)
    ∧ win2_3.index t (0 : Fin 2) ≤ 19
    ∧ win2_0.index t (1 : Fin 2) = 0 ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- Every block of rows is some point's. -/
theorem block_onto : ∀ q0 : Fin 20, ∃ t : Fin cfg2.N, win2_3.index t = ![q0.val, 0] :=
  (by decide +kernel : ∀ q0 : Fin 20, ∃ t : Fin grid2.N, win2_3.index t = ![q0.val, 0])

/-- What point t writes back is block t of the updated array. -/
theorem flushed_eq (c : Dev nD) (t : Fin cfg2.N) :
    (dat2 V c).flushed 3 t = ((cfg2.win 3).blk t).view.read (Elt Ideal) (updated V c) := by
  show (cfg2.win 3).cut (grid2.coords t) ((dat2 V c).after 3 t) = _
  rw [after2_3]
  unfold out2_3
  rw [View.canon_unit_zero origin]
  simp only [View.ld_unit_zero (S := S5000x128) origin, View.ld_unit_zero (S := S128x128) origin,
    View.ld_unit_zero (S := S1x128) origin]
  rw [Payloads.hop2_eq]
  obtain ⟨e0, eT, e01, e31, e10, e11, e20, e21⟩ := block_indices t
  have w1 : iblk2 V c 1 t = V c main_v38 := by
    funext y
    show V c main_v38 (((cfg2.win 1).blk t).view.emb y) = V c main_v38 y
    refine congrArg (V c main_v38) ?_
    funext a; apply Fin.ext
    match a with
    | ⟨0, _⟩ => show win2_1.index t (0 : Fin 2) * 128 + 1 * (y 0).val = (y 0).val; omega
    | ⟨1, _⟩ => show win2_1.index t (1 : Fin 2) * 128 + 1 * (y 1).val = (y 1).val; omega
  have w2 : iblk2 V c 2 t = V c main_v41 := by
    funext y
    show V c main_v41 (((cfg2.win 2).blk t).view.emb y) = V c main_v41 y
    refine congrArg (V c main_v41) ?_
    funext a; apply Fin.ext
    match a with
    | ⟨0, _⟩ => show win2_2.index t (0 : Fin 2) * 1 + 1 * (y 0).val = (y 0).val; omega
    | ⟨1, _⟩ => show win2_2.index t (1 : Fin 2) * 128 + 1 * (y 1).val = (y 1).val; omega
  funext j
  obtain ⟨p, q, rfl⟩ : ∃ (p : Fin 5000) (q : Fin 128), j = ix2 p q := ⟨j 0, j 1, eq_ix2 j⟩
  have hp : p.val < 5000 := p.isLt
  have hq : q.val < 128 := q.isLt
  have hP : win2_3.index t (0 : Fin 2) * 5000 + p.val < 100000 := by omega
  have rows : row (iblk2 V c 0 t) p = row (V c main_v36) ⟨win2_3.index t (0 : Fin 2) * 5000 + p.val, hP⟩ := by
    funext k
    have hk : k.val < 128 := k.isLt
    show V c main_v36 (((cfg2.win 0).blk t).view.emb (ix2 p k))
      = V c main_v36 (ix2 (⟨win2_3.index t (0 : Fin 2) * 5000 + p.val, hP⟩ : Fin 100000) k)
    refine congrArg (V c main_v36) ?_
    funext a; apply Fin.ext
    match a with
    | ⟨0, _⟩ => show win2_0.index t (0 : Fin 2) * 5000 + 1 * p.val = win2_3.index t (0 : Fin 2) * 5000 + p.val; omega
    | ⟨1, _⟩ => show win2_0.index t (1 : Fin 2) * 128 + 1 * k.val = k.val; omega
  have spot : ((cfg2.win 3).blk t).view.emb (ix2 p q)
      = ix2 (⟨win2_3.index t (0 : Fin 2) * 5000 + p.val, hP⟩ : Fin 100000) q := by
    funext a; apply Fin.ext
    match a with
    | ⟨0, _⟩ => show win2_3.index t (0 : Fin 2) * 5000 + 1 * p.val = win2_3.index t (0 : Fin 2) * 5000 + p.val; omega
    | ⟨1, _⟩ => show win2_3.index t (1 : Fin 2) * 128 + 1 * q.val = q.val; omega
  show k1_pay1 (iblk2 V c 0 t) (iblk2 V c 1 t) (iblk2 V c 2 t) (ix2 p q)
    = updated V c (((cfg2.win 3).blk t).view.emb (ix2 p q))
  refine (Payloads.hop_apply (iblk2 V c 0 t) (iblk2 V c 1 t) (iblk2 V c 2 t) p q).trans ?_
  rw [spot, rows, w1, w2]
  rfl

/-- An index of the array is in point t's block iff each coordinate is in the block's range on its axis. -/
theorem mem_block (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v42).slice (win2_3.rect t)).set ↔ _
  rw [View.set_slice_whole, Rect.mem_set_unit]
  exact Iff.rfl

/-- Every row of the array lies in some point's block: row r in block r / 5000. -/
theorem covered (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := block_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_block]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 128 ≤ (i 1).val ∧ (i 1).val < win2_3.index t (1 : Fin 2) * 128 + 128
    omega

/-- The result array after the region: the updated array. -/
theorem final (c : Dev nD) : (dat2 V c).arrAt 3 cfg2.N = updated V c :=
  (dat2 V c).arrAt_eq_of_cover 3 (updated V c) (fun t _ => flushed_eq V c t) (covered)

end Cert.KernelIdeal.Hop2Blocks

end
-- ==== Proof.Hop3Blocks.lean ====
/-
  Hop 3's update region, from blocks to the whole array.

  Point t of the 20 stages rows 5000·t … 5000·t + 4999 of the aggregated messages, the hop's weight matrix and its
  one-row bias whole, and writes back the same rows of the result. The body's stored value at row p of its block is
  the hop's row function (one clamped affine layer plus the row itself) of row 5000·t + p of the aggregated
  messages, so point t writes back block t of that row function applied to every row, and the 20 blocks tile the
  100000 rows. Stated at arbitrary contents V of the buffers when the region is entered.
-/
import proofs.«134437_j58720792871767_1_alg».proof.Proof.Gen.KernelIdeal.Frame
import proofs.«134437_j58720792871767_1_alg».proof.Proof.BlockPayloads
import Idealize.ShloMosaic.Lib.Pipeline.Value

noncomputable section

namespace Cert.KernelIdeal.Hop3Blocks

open Cert.KernelIdeal Cert.KernelIdeal.Gen Idealize.ShloMosaic Idealize.ShloMosaic.TcCoe Idealize.SL.Sem
open Idealize.ShloMosaic.ValueIdx DenseRows
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The array the region leaves: the hop's row function on every row of the aggregated messages. -/
def updated (c : Dev nD) : S100000x128.Idx → Elt Ideal .f32 :=
  onRows (hopRow (V c main_v56) (V c main_v59)) (V c main_v54)

/-- The printed index maps over the 20 points: the message window and the result window move together down the
    rows, the weight and bias windows stay on their one block. -/
theorem block_indices : ∀ t : Fin cfg3.N, win3_0.index t (0 : Fin 2) = win3_3.index t (0 : Fin 2)
    ∧ win3_3.index t (0 : Fin 2) ≤ 19
    ∧ win3_0.index t (1 : Fin 2) = 0 ∧ win3_3.index t (1 : Fin 2) = 0
    ∧ win3_1.index t (0 : Fin 2) = 0 ∧ win3_1.index t (1 : Fin 2) = 0
    ∧ win3_2.index t (0 : Fin 2) = 0 ∧ win3_2.index t (1 : Fin 2) = 0 :=
  (by decide +kernel : ∀ t : Fin grid3.N, _)

/-- Every block of rows is some point's. -/
theorem block_onto : ∀ q0 : Fin 20, ∃ t : Fin cfg3.N, win3_3.index t = ![q0.val, 0] :=
  (by decide +kernel : ∀ q0 : Fin 20, ∃ t : Fin grid3.N, win3_3.index t = ![q0.val, 0])

/-- What point t writes back is block t of the updated array. -/
theorem flushed_eq (c : Dev nD) (t : Fin cfg3.N) :
    (dat3 V c).flushed 3 t = ((cfg3.win 3).blk t).view.read (Elt Ideal) (updated V c) := by
  show (cfg3.win 3).cut (grid3.coords t) ((dat3 V c).after 3 t) = _
  rw [after3_3]
  unfold out3_3
  rw [View.canon_unit_zero origin]
  simp only [View.ld_unit_zero (S := S5000x128) origin, View.ld_unit_zero (S := S128x128) origin,
    View.ld_unit_zero (S := S1x128) origin]
  rw [Payloads.hop3_eq]
  obtain ⟨e0, eT, e01, e31, e10, e11, e20, e21⟩ := block_indices t
  have w1 : iblk3 V c 1 t = V c main_v56 := by
    funext y
    show V c main_v56 (((cfg3.win 1).blk t).view.emb y) = V c main_v56 y
    refine congrArg (V c main_v56) ?_
    funext a; apply Fin.ext
    match a with
    | ⟨0, _⟩ => show win3_1.index t (0 : Fin 2) * 128 + 1 * (y 0).val = (y 0).val; omega
    | ⟨1, _⟩ => show win3_1.index t (1 : Fin 2) * 128 + 1 * (y 1).val = (y 1).val; omega
  have w2 : iblk3 V c 2 t = V c main_v59 := by
    funext y
    show V c main_v59 (((cfg3.win 2).blk t).view.emb y) = V c main_v59 y
    refine congrArg (V c main_v59) ?_
    funext a; apply Fin.ext
    match a with
    | ⟨0, _⟩ => show win3_2.index t (0 : Fin 2) * 1 + 1 * (y 0).val = (y 0).val; omega
    | ⟨1, _⟩ => show win3_2.index t (1 : Fin 2) * 128 + 1 * (y 1).val = (y 1).val; omega
  funext j
  obtain ⟨p, q, rfl⟩ : ∃ (p : Fin 5000) (q : Fin 128), j = ix2 p q := ⟨j 0, j 1, eq_ix2 j⟩
  have hp : p.val < 5000 := p.isLt
  have hq : q.val < 128 := q.isLt
  have hP : win3_3.index t (0 : Fin 2) * 5000 + p.val < 100000 := by omega
  have rows : row (iblk3 V c 0 t) p = row (V c main_v54) ⟨win3_3.index t (0 : Fin 2) * 5000 + p.val, hP⟩ := by
    funext k
    have hk : k.val < 128 := k.isLt
    show V c main_v54 (((cfg3.win 0).blk t).view.emb (ix2 p k))
      = V c main_v54 (ix2 (⟨win3_3.index t (0 : Fin 2) * 5000 + p.val, hP⟩ : Fin 100000) k)
    refine congrArg (V c main_v54) ?_
    funext a; apply Fin.ext
    match a with
    | ⟨0, _⟩ => show win3_0.index t (0 : Fin 2) * 5000 + 1 * p.val = win3_3.index t (0 : Fin 2) * 5000 + p.val; omega
    | ⟨1, _⟩ => show win3_0.index t (1 : Fin 2) * 128 + 1 * k.val = k.val; omega
  have spot : ((cfg3.win 3).blk t).view.emb (ix2 p q)
      = ix2 (⟨win3_3.index t (0 : Fin 2) * 5000 + p.val, hP⟩ : Fin 100000) q := by
    funext a; apply Fin.ext
    match a with
    | ⟨0, _⟩ => show win3_3.index t (0 : Fin 2) * 5000 + 1 * p.val = win3_3.index t (0 : Fin 2) * 5000 + p.val; omega
    | ⟨1, _⟩ => show win3_3.index t (1 : Fin 2) * 128 + 1 * q.val = q.val; omega
  show k1_pay1 (iblk3 V c 0 t) (iblk3 V c 1 t) (iblk3 V c 2 t) (ix2 p q)
    = updated V c (((cfg3.win 3).blk t).view.emb (ix2 p q))
  refine (Payloads.hop_apply (iblk3 V c 0 t) (iblk3 V c 1 t) (iblk3 V c 2 t) p q).trans ?_
  rw [spot, rows, w1, w2]
  rfl

/-- An index of the array is in point t's block iff each coordinate is in the block's range on its axis. -/
theorem mem_block (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v60).slice (win3_3.rect t)).set ↔ _
  rw [View.set_slice_whole, Rect.mem_set_unit]
  exact Iff.rfl

/-- Every row of the array lies in some point's block: row r in block r / 5000. -/
theorem covered (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := block_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_block]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 128 ≤ (i 1).val ∧ (i 1).val < win3_3.index t (1 : Fin 2) * 128 + 128
    omega

/-- The result array after the region: the updated array. -/
theorem final (c : Dev nD) : (dat3 V c).arrAt 3 cfg3.N = updated V c :=
  (dat3 V c).arrAt_eq_of_cover 3 (updated V c) (fun t _ => flushed_eq V c t) (covered)

end Cert.KernelIdeal.Hop3Blocks

end
-- ==== Proof.DecoderBlocks.lean ====
/-
  The decoder region, from blocks to the whole array.

  Point t of the 20 stages rows 5000·t … 5000·t + 4999 of the last hop's node states, the two weight matrices and the
  two one-row biases whole, and writes back rows 5000·t … 5000·t + 4999 of the 100000 × 40 result. The body's stored
  value at row p of its block is the decoder's row function (a clamped affine layer, then a plain one) of row
  5000·t + p of the node states, so point t writes back block t of that row function applied to every row, and the
  20 blocks tile the 100000 rows. Stated at arbitrary contents V of the buffers when the region is entered.
-/
import proofs.«134437_j58720792871767_1_alg».proof.Proof.Gen.KernelIdeal.Frame
import proofs.«134437_j58720792871767_1_alg».proof.Proof.BlockPayloads
import Idealize.ShloMosaic.Lib.Pipeline.Value

noncomputable section

namespace Cert.KernelIdeal.DecoderBlocks

open Cert.KernelIdeal Cert.KernelIdeal.Gen Idealize.ShloMosaic Idealize.ShloMosaic.TcCoe Idealize.SL.Sem
open Idealize.ShloMosaic.ValueIdx DenseRows
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The array the region leaves: the decoder's row function on every row of the node states. -/
def decoded (c : Dev nD) : S100000x40.Idx → Elt Ideal .f32 :=
  onRows (decoderRow (V c main_arg9) (V c main_v61) (V c main_arg11) (V c main_v62)) (V c main_v60)

/-- The printed index maps over the 20 points: the node-state window and the result window move together down
    the rows, every other window stays on its one block. -/
theorem block_indices : ∀ t : Fin cfg4.N, win4_0.index t (0 : Fin 2) = win4_5.index t (0 : Fin 2)
    ∧ win4_5.index t (0 : Fin 2) ≤ 19
    ∧ win4_0.index t (1 : Fin 2) = 0 ∧ win4_5.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Every block of rows is some point's. -/
theorem block_onto : ∀ q0 : Fin 20, ∃ t : Fin cfg4.N, win4_5.index t = ![q0.val, 0] :=
  (by decide +kernel : ∀ q0 : Fin 20, ∃ t : Fin grid4.N, win4_5.index t = ![q0.val, 0])

/-- What point t writes back is block t of the decoded array. -/
theorem flushed_eq (c : Dev nD) (t : Fin cfg4.N) :
    (dat4 V c).flushed 5 t = ((cfg4.win 5).blk t).view.read (Elt Ideal) (decoded V c) := by
  show (cfg4.win 5).cut (grid4.coords t) ((dat4 V c).after 5 t) = _
  rw [after4_5]
  unfold out4_5
  rw [View.canon_unit_zero origin]
  simp only [View.ld_unit_zero (S := S5000x128) origin, View.ld_unit_zero (S := S128x128) origin,
    View.ld_unit_zero (S := S1x128) origin, View.ld_unit_zero (S := S128x40) origin, View.ld_unit_zero (S := S1x40) origin]
  obtain ⟨e0, eT, e01, e51, e10, e11, e20, e21, e30, e31, e40, e41⟩ := block_indices t
  have w1 : iblk4 V c 1 t = V c main_arg9 := by
    funext y
    show V c main_arg9 (((cfg4.win 1).blk t).view.emb y) = V c main_arg9 y
    refine congrArg (V c main_arg9) ?_
    funext a; apply Fin.ext
    match a with
    | ⟨0, _⟩ => show win4_1.index t (0 : Fin 2) * 128 + 1 * (y 0).val = (y 0).val; omega
    | ⟨1, _⟩ => show win4_1.index t (1 : Fin 2) * 128 + 1 * (y 1).val = (y 1).val; omega
  have w2 : iblk4 V c 2 t = V c main_v61 := by
    funext y
    show V c main_v61 (((cfg4.win 2).blk t).view.emb y) = V c main_v61 y
    refine congrArg (V c main_v61) ?_
    funext a; apply Fin.ext
    match a with
    | ⟨0, _⟩ => show win4_2.index t (0 : Fin 2) * 1 + 1 * (y 0).val = (y 0).val; omega
    | ⟨1, _⟩ => show win4_2.index t (1 : Fin 2) * 128 + 1 * (y 1).val = (y 1).val; omega
  have w3 : iblk4 V c 3 t = V c main_arg11 := by
    funext y
    show V c main_arg11 (((cfg4.win 3).blk t).view.emb y) = V c main_arg11 y
    refine congrArg (V c main_arg11) ?_
    funext a; apply Fin.ext
    match a with
    | ⟨0, _⟩ => show win4_3.index t (0 : Fin 2) * 128 + 1 * (y 0).val = (y 0).val; omega
    | ⟨1, _⟩ => show win4_3.index t (1 : Fin 2) * 40 + 1 * (y 1).val = (y 1).val; omega
  have w4 : iblk4 V c 4 t = V c main_v62 := by
    funext y
    show V c main_v62 (((cfg4.win 4).blk t).view.emb y) = V c main_v62 y
    refine congrArg (V c main_v62) ?_
    funext a; apply Fin.ext
    match a with
    | ⟨0, _⟩ => show win4_4.index t (0 : Fin 2) * 1 + 1 * (y 0).val = (y 0).val; omega
    | ⟨1, _⟩ => show win4_4.index t (1 : Fin 2) * 40 + 1 * (y 1).val = (y 1).val; omega
  funext j
  obtain ⟨p, q, rfl⟩ : ∃ (p : Fin 5000) (q : Fin 40), j = ix2 p q := ⟨j 0, j 1, eq_ix2 j⟩
  have hp : p.val < 5000 := p.isLt
  have hq : q.val < 40 := q.isLt
  have hP : win4_5.index t (0 : Fin 2) * 5000 + p.val < 100000 := by omega
  have rows : row (iblk4 V c 0 t) p = row (V c main_v60) ⟨win4_5.index t (0 : Fin 2) * 5000 + p.val, hP⟩ := by
    funext k
    have hk : k.val < 128 := k.isLt
    show V c main_v60 (((cfg4.win 0).blk t).view.emb (ix2 p k))
      = V c main_v60 (ix2 (⟨win4_5.index t (0 : Fin 2) * 5000 + p.val, hP⟩ : Fin 100000) k)
    refine congrArg (V c main_v60) ?_
    funext a; apply Fin.ext
    match a with
    | ⟨0, _⟩ => show win4_0.index t (0 : Fin 2) * 5000 + 1 * p.val = win4_5.index t (0 : Fin 2) * 5000 + p.val; omega
    | ⟨1, _⟩ => show win4_0.index t (1 : Fin 2) * 128 + 1 * k.val = k.val; omega
  have spot : ((cfg4.win 5).blk t).view.emb (ix2 p q)
      = ix2 (⟨win4_5.index t (0 : Fin 2) * 5000 + p.val, hP⟩ : Fin 100000) q := by
    funext a; apply Fin.ext
    match a with
    | ⟨0, _⟩ => show win4_5.index t (0 : Fin 2) * 5000 + 1 * p.val = win4_5.index t (0 : Fin 2) * 5000 + p.val; omega
    | ⟨1, _⟩ => show win4_5.index t (1 : Fin 2) * 40 + 1 * q.val = q.val; omega
  show k4_pay1 (iblk4 V c 0 t) (iblk4 V c 1 t) (iblk4 V c 2 t) (iblk4 V c 3 t) (iblk4 V c 4 t) (ix2 p q)
    = decoded V c (((cfg4.win 5).blk t).view.emb (ix2 p q))
  refine (Payloads.decoder_apply (iblk4 V c 0 t) (iblk4 V c 1 t) (iblk4 V c 2 t) (iblk4 V c 3 t) (iblk4 V c 4 t) p q).trans ?_
  rw [spot, rows, w1, w2, w3, w4]
  rfl

/-- An index of the array is in point t's block iff each coordinate is in the block's range on its axis. -/
theorem mem_block (t : Fin cfg4.N) (i : S100000x40.Idx) :
    i ∈ ((cfg4.win 5).blk t).view.set ↔ ∀ a : Fin 2, win4_5.index t a * S5000x40.size a ≤ (i a).val
      ∧ (i a).val < win4_5.index t a * S5000x40.size a + S5000x40.size a := by
  show i ∈ ((View.whole main_v63).slice (win4_5.rect t)).set ↔ _
  rw [View.set_slice_whole, Rect.mem_set_unit]
  exact Iff.rfl

/-- Every row of the array lies in some point's block: row r in block r / 5000. -/
theorem covered (i : S100000x40.Idx) :
    ∃ t : Fin cfg4.N, (cfg4.win 5).flush t = true ∧ i ∈ ((cfg4.win 5).blk t).view.set := by
  have hi0 : (i 0).val < 100000 := (i 0).isLt
  have hi1 : (i 1).val < 40 := (i 1).isLt
  obtain ⟨t, ht⟩ := block_onto ⟨(i 0).val / 5000, by omega⟩
  have q0 : win4_5.index t (0 : Fin 2) = (i 0).val / 5000 := congrFun ht 0
  have q1 : win4_5.index t (1 : Fin 2) = 0 := congrFun ht 1
  refine ⟨t, flush4_5 t, ?_⟩
  rw [mem_block]
  intro a
  match a with
  | ⟨0, _⟩ =>
    show win4_5.index t (0 : Fin 2) * 5000 ≤ (i 0).val ∧ (i 0).val < win4_5.index t (0 : Fin 2) * 5000 + 5000
    omega
  | ⟨1, _⟩ =>
    show win4_5.index t (1 : Fin 2) * 40 ≤ (i 1).val ∧ (i 1).val < win4_5.index t (1 : Fin 2) * 40 + 40
    omega

/-- The result array after the region: the decoded array. -/
theorem final (c : Dev nD) : (dat4 V c).arrAt 5 cfg4.N = decoded V c :=
  (dat4 V c).arrAt_eq_of_cover 5 (decoded V c) (fun t _ => flushed_eq V c t) (covered)

end Cert.KernelIdeal.DecoderBlocks

end
-- ==== Proof.RefLayers.lean ====
/-
  The reference program's layers by name, and its result as their composition.

  The reference computes: two clamped dense layers (the encoder); three rounds of message passing, each gathering the
  sender's node state along every edge, scaling it by the edge's weight, summing the messages into the receiver's
  row of a zero array, and then applying one clamped dense layer with the aggregate added back; and a clamped dense
  layer followed by a plain one (the decoder). The gather and the sum are kept as ONE opaque function of the node
  states, the sender and receiver lists and the edge weights: both programs apply the same one, so it is never
  opened. Each dense stage is a function of one row applied to every row.
-/
import proofs.«134437_j58720792871767_1_alg».proof.Proof.Gen.ReferenceIdeal.Run
import proofs.«134437_j58720792871767_1_alg».proof.Proof.LibDenseRows

noncomputable section

namespace Cert.ReferenceIdeal.Layers

open Cert.ReferenceIdeal Cert.ReferenceIdeal.Gen Idealize.ShloMosaic Idealize.ShloMosaic.TcCoe Idealize.SL.Sem
open Idealize.ShloMosaic.ValueIdx DenseRows

abbrev Nodes := FVec Ideal S100000x128 .f32
abbrev Weights := FVec Ideal S128x128 .f32
abbrev Bias := FVec Ideal S128 .f32
abbrev BiasRow := FVec Ideal S1x128 .f32
abbrev EdgeList := IVec S2x1600000 32
abbrev Ends := IVec S1600000 32
abbrev EdgeWeights := FVec Ideal S1600000x1 .f32
abbrev HopWeights := FVec Ideal S3x128x128 .f32
abbrev HopBiases := FVec Ideal S3x128 .f32
abbrev OutWeights := FVec Ideal S128x40 .f32
abbrev OutBias := FVec Ideal S40 .f32
abbrev OutBiasRow := FVec Ideal S1x40 .f32
abbrev Scores := FVec Ideal S100000x40 .f32

/-- The zero array the messages are summed into, and every clamp's lower bound. -/
def zeros : Nodes := broadcastInDim S100000x128 ![] bcast_S_S100000x128 (constant (F := Ideal) S_ .f32 0x00000000#32)

/-- A bias vector laid as a one-row matrix. -/
def biasRow (b : Bias) : BiasRow := broadcastInDim S1x128 ![1] bcast_S128_S1x128_1 b
def outBiasRow (b : OutBias) : OutBiasRow := broadcastInDim S1x40 ![1] bcast_S40_S1x40_1 b

/-- One clamped dense layer over a one-row bias. -/
def denseRow (A : Nodes) (W : Weights) (B : BiasRow) : Nodes :=
  maximumf (addf (Host.dotGeneral dot_S100000x128_S128x128_S100000x128_1_0_0_1_n_n none A W)
    (broadcastInDim S100000x128 ![0, 1] bcast_S1x128_S100000x128_0_1 B)) zeros

/-- One clamped dense layer. -/
def dense (A : Nodes) (W : Weights) (b : Bias) : Nodes := denseRow A W (biasRow b)

/-- The senders (row 1 of the edge list) and the receivers (row 0). -/
def senders (e : EdgeList) : Ends :=
  shapeCast _ (extractStridedSlice S1x1600000 ![1, 0] e slices_S2x1600000_S1x1600000_1_0) shapeCasts_S1x1600000_S1600000
def receivers (e : EdgeList) : Ends :=
  shapeCast _ (extractStridedSlice S1x1600000 ![0, 0] e slices_S2x1600000_S1x1600000_0_0) shapeCasts_S1x1600000_S1600000

/-- One round's aggregate: gather the sender's state along every edge (a negative index counted from the end), scale
    by the edge weight, sum into the receiver's row of a zero array. Never opened. -/
def aggregateFrom (H : Nodes) (s r : Ends) (a : EdgeWeights) : Nodes :=
  Host.scatterAdd scatter_S100000x128_S1600000x1_S1600000x128_1_0_0_1 zeros
    (broadcastInDim S1600000x1 ![0] bcast_S1600000_S1600000x1_0 r)
    (mulf (broadcastInDim S1600000x128 ![0, 1] bcast_S1600000x1_S1600000x128_0_1 a)
      (Host.gather gather_S100000x128_S1600000x1_S1600000x128_1_0_n_n_0_1_1128 H
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))

/-- One hop's update: a clamped dense layer of the aggregate, plus the aggregate. -/
def hop (conv : Nodes) (W : Weights) (b : Bias) : Nodes := addf (dense conv W b) conv

/-- Hop j's weight matrix and bias out of the stacked ones. -/
def hopW0 (w : HopWeights) : Weights :=
  shapeCast _ (extractStridedSlice S1x128x128 ![0, 0, 0] w slices_S3x128x128_S1x128x128_0_0_0) shapeCasts_S1x128x128_S128x128
def hopW1 (w : HopWeights) : Weights :=
  shapeCast _ (extractStridedSlice S1x128x128 ![1, 0, 0] w slices_S3x128x128_S1x128x128_1_0_0) shapeCasts_S1x128x128_S128x128
def hopW2 (w : HopWeights) : Weights :=
  shapeCast _ (extractStridedSlice S1x128x128 ![2, 0, 0] w slices_S3x128x128_S1x128x128_2_0_0) shapeCasts_S1x128x128_S128x128
def hopB0 (b : HopBiases) : Bias := shapeCast _ (extractStridedSlice S1x128 ![0, 0] b slices_S3x128_S1x128_0_0) shapeCasts_S1x128_S128
def hopB1 (b : HopBiases) : Bias := shapeCast _ (extractStridedSlice S1x128 ![1, 0] b slices_S3x128_S1x128_1_0) shapeCasts_S1x128_S128
def hopB2 (b : HopBiases) : Bias := shapeCast _ (extractStridedSlice S1x128 ![2, 0] b slices_S3x128_S1x128_2_0) shapeCasts_S1x128_S128

/-- The last, unclamped layer over a one-row bias. -/
def readoutRow (A : Nodes) (W : OutWeights) (B : OutBiasRow) : Scores :=
  addf (Host.dotGeneral dot_S100000x128_S128x40_S100000x40_1_0_0_1_n_n none A W)
    (broadcastInDim S100000x40 ![0, 1] bcast_S1x40_S100000x40_0_1 B)
def readout (A : Nodes) (W : OutWeights) (b : OutBias) : Scores := readoutRow A W (outBiasRow b)

/-- The whole network. -/
def network (x : Nodes) (e : EdgeList) (a : EdgeWeights) (w3 : Weights) (b4 : Bias) (w5 : Weights) (b6 : Bias)
    (w7 : HopWeights) (b8 : HopBiases) (w9 : Weights) (b10 : Bias) (w11 : OutWeights) (b12 : OutBias) : Scores :=
  readout (dense
    (hop (aggregateFrom
      (hop (aggregateFrom
        (hop (aggregateFrom (dense (dense x w3 b4) w5 b6) (senders e) (receivers e) a) (hopW0 w7) (hopB0 b8))
        (senders e) (receivers e) a) (hopW1 w7) (hopB1 b8))
      (senders e) (receivers e) a) (hopW2 w7) (hopB2 b8))
    w9 b10) w11 b12

set_option maxRecDepth 8192 in
/-- The reference run's result term is the network of the argument arrays. -/
theorem result_eq (m : (ℓ : Loc nD τ sig) → Buf (Elt Ideal) ℓ) (c : Dev nD) :
    Value.res_main_v88 (F := Ideal) m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) := by
  unfold Value.res_main_v88 network readout readoutRow outBiasRow hop dense denseRow biasRow aggregateFrom senders receivers
    zeros hopW0 hopW1 hopW2 hopB0 hopB1 hopB2
  rfl

/-! ## Each dense stage as a function of one row -/

theorem dot128_plain : dot_S100000x128_S128x128_S100000x128_1_0_0_1_n_n = DotDims.plain 100000 128 128 := rfl
theorem dot40_plain : dot_S100000x128_S128x40_S100000x40_1_0_0_1_n_n = DotDims.plain 100000 128 40 := rfl

/-- One clamped dense layer is the clamped affine row map. -/
theorem denseRow_eq (A : Nodes) (W : Weights) (B : BiasRow) :
    denseRow A W B = onRows (fun a => clamp (affine W B a)) A := by
  funext i
  obtain ⟨p, q, rfl⟩ : ∃ (p : Fin 100000) (q : Fin 128), i = ix2 p q := ⟨i 0, i 1, eq_ix2 i⟩
  unfold denseRow zeros
  rw [dot128_plain]
  exact clamped_dot_bias_apply none A W B bcast_S1x128_S100000x128_0_1 bcast_S_S100000x128 p q

/-- The encoder is the encoder's row map. -/
theorem encoder_eq (x : Nodes) (w3 : Weights) (B4 : BiasRow) (w5 : Weights) (B6 : BiasRow) :
    denseRow (denseRow x w3 B4) w5 B6 = onRows (encoderRow w3 B4 w5 B6) x := by
  rw [denseRow_eq (denseRow x w3 B4), denseRow_eq x]
  rfl

/-- One hop's update is the hop's row map. -/
theorem hop_eq (conv : Nodes) (W : Weights) (B : BiasRow) :
    addf (denseRow conv W B) conv = onRows (hopRow W B) conv := by
  rw [denseRow_eq]
  funext i
  obtain ⟨p, q, rfl⟩ : ∃ (p : Fin 100000) (q : Fin 128), i = ix2 p q := ⟨i 0, i 1, eq_ix2 i⟩
  rfl

/-- The decoder is the decoder's row map. -/
theorem decoder_eq (h : Nodes) (w9 : Weights) (B10 : BiasRow) (w11 : OutWeights) (B12 : OutBiasRow) :
    readoutRow (denseRow h w9 B10) w11 B12 = onRows (decoderRow w9 B10 w11 B12) h := by
  rw [denseRow_eq]
  funext i
  obtain ⟨p, q, rfl⟩ : ∃ (p : Fin 100000) (q : Fin 40), i = ix2 p q := ⟨i 0, i 1, eq_ix2 i⟩
  unfold readoutRow
  rw [dot40_plain]
  exact dot_bias_apply none _ w11 B12 bcast_S1x40_S100000x40_0_1 p q

/-! ## The whole network as row maps around the aggregate -/

/-- The encoder's row map, one round (aggregate, then the hop's row map), the decoder's row map: over one-row biases. -/
def encodedRows (x : Nodes) (w3 : Weights) (B4 : BiasRow) (w5 : Weights) (B6 : BiasRow) : Nodes :=
  onRows (encoderRow w3 B4 w5 B6) x
def roundRows (H : Nodes) (s r : Ends) (a : EdgeWeights) (W : Weights) (B : BiasRow) : Nodes :=
  onRows (hopRow W B) (aggregateFrom H s r a)
def decodedRows (H : Nodes) (w9 : Weights) (B10 : BiasRow) (w11 : OutWeights) (B12 : OutBiasRow) : Scores :=
  onRows (decoderRow w9 B10 w11 B12) H

/-- The network with every dense stage a row map. -/
def networkRows (x : Nodes) (e : EdgeList) (a : EdgeWeights) (w3 : Weights) (B4 : BiasRow) (w5 : Weights) (B6 : BiasRow)
    (w7 : HopWeights) (B80 B81 B82 : BiasRow) (w9 : Weights) (B10 : BiasRow) (w11 : OutWeights) (B12 : OutBiasRow) : Scores :=
  decodedRows
    (roundRows
      (roundRows
        (roundRows (encodedRows x w3 B4 w5 B6) (senders e) (receivers e) a (hopW0 w7) B80)
        (senders e) (receivers e) a (hopW1 w7) B81)
      (senders e) (receivers e) a (hopW2 w7) B82)
    w9 B10 w11 B12

/-- The reference's network is that one, each bias broadcast to its one-row matrix. -/
theorem network_eq_rows (x : Nodes) (e : EdgeList) (a : EdgeWeights) (w3 : Weights) (b4 : Bias) (w5 : Weights) (b6 : Bias)
    (w7 : HopWeights) (b8 : HopBiases) (w9 : Weights) (b10 : Bias) (w11 : OutWeights) (b12 : OutBias) :
    network x e a w3 b4 w5 b6 w7 b8 w9 b10 w11 b12
      = networkRows x e a w3 (biasRow b4) w5 (biasRow b6) w7 (biasRow (hopB0 b8)) (biasRow (hopB1 b8)) (biasRow (hopB2 b8))
          w9 (biasRow b10) w11 (outBiasRow b12) := by
  unfold network networkRows decodedRows roundRows encodedRows readout hop dense
  rw [encoder_eq, hop_eq, hop_eq, hop_eq, decoder_eq]

end Cert.ReferenceIdeal.Layers

end
-- ==== Proof.Between.lean ====
/-
  The host operations between the regions, at arbitrary contents W of the buffers before the stretch.

  Stretch 0 recasts the two encoder biases as one-row matrices. Stretch 1 cuts the senders and the receivers out of
  the edge list, forms the first round's aggregate from the encoder's result, and cuts hop 0's weight matrix and
  (recast as a one-row matrix) its bias out of the stacked ones. Stretches 2 and 3 form the next rounds' aggregates
  from the previous hop's result and the SAME sender and receiver lists, and cut the next hop's weights and bias.
  Stretch 4 recasts the two decoder biases. Each stretch leaves every argument array it does not write as it was.
  The aggregate and the cuts are the reference's own functions of the same arrays.
-/
import proofs.«134437_j58720792871767_1_alg».proof.Proof.Gen.KernelIdeal.Launch
import proofs.«134437_j58720792871767_1_alg».proof.Proof.RefLayers
import Idealize.ShloMosaic.Lib.StableHlo.Run

noncomputable section

namespace Cert.KernelIdeal.Between

open Cert.KernelIdeal Cert.KernelIdeal.Gen Idealize.ShloMosaic Idealize.ShloMosaic.TcCoe Idealize.SL.Sem
open Idealize.ShloMosaic.StableHlo
open Cert.ReferenceIdeal.Layers (aggregateFrom senders receivers hopW0 hopW1 hopW2 hopB0 hopB1 hopB2)

variable (W : Valuation τ sig (Elt Ideal))

/-! ### Stretch 0: buffers it does not write -/

theorem s0_keep_arg0 : StableHlo.after hostOps0 W (Proc.devRef .tc main_arg0) = W (Proc.devRef .tc main_arg0) := by
  dsimp only [hostOps0]; after_results
theorem s0_keep_arg1 : StableHlo.after hostOps0 W (Proc.devRef .tc main_arg1) = W (Proc.devRef .tc main_arg1) := by
  dsimp only [hostOps0]; after_results
theorem s0_keep_arg2 : StableHlo.after hostOps0 W (Proc.devRef .tc main_arg2) = W (Proc.devRef .tc main_arg2) := by
  dsimp only [hostOps0]; after_results
theorem s0_keep_arg3 : StableHlo.after hostOps0 W (Proc.devRef .tc main_arg3) = W (Proc.devRef .tc main_arg3) := by
  dsimp only [hostOps0]; after_results
theorem s0_keep_arg5 : StableHlo.after hostOps0 W (Proc.devRef .tc main_arg5) = W (Proc.devRef .tc main_arg5) := by
  dsimp only [hostOps0]; after_results
theorem s0_keep_arg7 : StableHlo.after hostOps0 W (Proc.devRef .tc main_arg7) = W (Proc.devRef .tc main_arg7) := by
  dsimp only [hostOps0]; after_results
theorem s0_keep_arg8 : StableHlo.after hostOps0 W (Proc.devRef .tc main_arg8) = W (Proc.devRef .tc main_arg8) := by
  dsimp only [hostOps0]; after_results
theorem s0_keep_arg9 : StableHlo.after hostOps0 W (Proc.devRef .tc main_arg9) = W (Proc.devRef .tc main_arg9) := by
  dsimp only [hostOps0]; after_results
theorem s0_keep_arg10 : StableHlo.after hostOps0 W (Proc.devRef .tc main_arg10) = W (Proc.devRef .tc main_arg10) := by
  dsimp only [hostOps0]; after_results
theorem s0_keep_arg11 : StableHlo.after hostOps0 W (Proc.devRef .tc main_arg11) = W (Proc.devRef .tc main_arg11) := by
  dsimp only [hostOps0]; after_results
theorem s0_keep_arg12 : StableHlo.after hostOps0 W (Proc.devRef .tc main_arg12) = W (Proc.devRef .tc main_arg12) := by
  dsimp only [hostOps0]; after_results

/-! ### Stretch 1: buffers it does not write -/

theorem s1_keep_arg2 : StableHlo.after hostOps1 W (Proc.devRef .tc main_arg2) = W (Proc.devRef .tc main_arg2) := by
  dsimp only [hostOps1]; after_results
theorem s1_keep_arg7 : StableHlo.after hostOps1 W (Proc.devRef .tc main_arg7) = W (Proc.devRef .tc main_arg7) := by
  dsimp only [hostOps1]; after_results
theorem s1_keep_arg8 : StableHlo.after hostOps1 W (Proc.devRef .tc main_arg8) = W (Proc.devRef .tc main_arg8) := by
  dsimp only [hostOps1]; after_results
theorem s1_keep_arg9 : StableHlo.after hostOps1 W (Proc.devRef .tc main_arg9) = W (Proc.devRef .tc main_arg9) := by
  dsimp only [hostOps1]; after_results
theorem s1_keep_arg10 : StableHlo.after hostOps1 W (Proc.devRef .tc main_arg10) = W (Proc.devRef .tc main_arg10) := by
  dsimp only [hostOps1]; after_results
theorem s1_keep_arg11 : StableHlo.after hostOps1 W (Proc.devRef .tc main_arg11) = W (Proc.devRef .tc main_arg11) := by
  dsimp only [hostOps1]; after_results
theorem s1_keep_arg12 : StableHlo.after hostOps1 W (Proc.devRef .tc main_arg12) = W (Proc.devRef .tc main_arg12) := by
  dsimp only [hostOps1]; after_results

/-! ### Stretch 2: buffers it does not write -/

theorem s2_keep_v4 : StableHlo.after hostOps2 W (Proc.devRef .tc main_v4) = W (Proc.devRef .tc main_v4) := by
  dsimp only [hostOps2]; after_results
theorem s2_keep_v6 : StableHlo.after hostOps2 W (Proc.devRef .tc main_v6) = W (Proc.devRef .tc main_v6) := by
  dsimp only [hostOps2]; after_results
theorem s2_keep_arg2 : StableHlo.after hostOps2 W (Proc.devRef .tc main_arg2) = W (Proc.devRef .tc main_arg2) := by
  dsimp only [hostOps2]; after_results
theorem s2_keep_arg7 : StableHlo.after hostOps2 W (Proc.devRef .tc main_arg7) = W (Proc.devRef .tc main_arg7) := by
  dsimp only [hostOps2]; after_results
theorem s2_keep_arg8 : StableHlo.after hostOps2 W (Proc.devRef .tc main_arg8) = W (Proc.devRef .tc main_arg8) := by
  dsimp only [hostOps2]; after_results
theorem s2_keep_arg9 : StableHlo.after hostOps2 W (Proc.devRef .tc main_arg9) = W (Proc.devRef .tc main_arg9) := by
  dsimp only [hostOps2]; after_results
theorem s2_keep_arg10 : StableHlo.after hostOps2 W (Proc.devRef .tc main_arg10) = W (Proc.devRef .tc main_arg10) := by
  dsimp only [hostOps2]; after_results
theorem s2_keep_arg11 : StableHlo.after hostOps2 W (Proc.devRef .tc main_arg11) = W (Proc.devRef .tc main_arg11) := by
  dsimp only [hostOps2]; after_results
theorem s2_keep_arg12 : StableHlo.after hostOps2 W (Proc.devRef .tc main_arg12) = W (Proc.devRef .tc main_arg12) := by
  dsimp only [hostOps2]; after_results

/-! ### Stretch 3: buffers it does not write -/

theorem s3_keep_arg9 : StableHlo.after hostOps3 W (Proc.devRef .tc main_arg9) = W (Proc.devRef .tc main_arg9) := by
  dsimp only [hostOps3]; after_results
theorem s3_keep_arg10 : StableHlo.after hostOps3 W (Proc.devRef .tc main_arg10) = W (Proc.devRef .tc main_arg10) := by
  dsimp only [hostOps3]; after_results
theorem s3_keep_arg11 : StableHlo.after hostOps3 W (Proc.devRef .tc main_arg11) = W (Proc.devRef .tc main_arg11) := by
  dsimp only [hostOps3]; after_results
theorem s3_keep_arg12 : StableHlo.after hostOps3 W (Proc.devRef .tc main_arg12) = W (Proc.devRef .tc main_arg12) := by
  dsimp only [hostOps3]; after_results

/-! ### Stretch 4: buffers it does not write -/

theorem s4_keep_v60 : StableHlo.after hostOps4 W (Proc.devRef .tc main_v60) = W (Proc.devRef .tc main_v60) := by
  dsimp only [hostOps4]; after_results
theorem s4_keep_arg9 : StableHlo.after hostOps4 W (Proc.devRef .tc main_arg9) = W (Proc.devRef .tc main_arg9) := by
  dsimp only [hostOps4]; after_results
theorem s4_keep_arg11 : StableHlo.after hostOps4 W (Proc.devRef .tc main_arg11) = W (Proc.devRef .tc main_arg11) := by
  dsimp only [hostOps4]; after_results

/-! ### What the stretches write -/

theorem s0_v0 : StableHlo.after hostOps0 W (Proc.devRef .tc main_v0)
    = shapeCast S1x128 (W (Proc.devRef .tc main_arg4)) shapeCasts_S128_S1x128 := by
  dsimp only [hostOps0]; after_results; rfl
theorem s0_v1 : StableHlo.after hostOps0 W (Proc.devRef .tc main_v1)
    = shapeCast S1x128 (W (Proc.devRef .tc main_arg6)) shapeCasts_S128_S1x128 := by
  dsimp only [hostOps0]; after_results; rfl

theorem s1_v4 : StableHlo.after hostOps1 W (Proc.devRef .tc main_v4) = senders (W (Proc.devRef .tc main_arg1)) := by
  dsimp only [hostOps1]; after_results; rfl
theorem s1_v6 : StableHlo.after hostOps1 W (Proc.devRef .tc main_v6) = receivers (W (Proc.devRef .tc main_arg1)) := by
  dsimp only [hostOps1]; after_results; rfl
set_option maxHeartbeats 2000000 in
theorem s1_v18 : StableHlo.after hostOps1 W (Proc.devRef .tc main_v18)
    = aggregateFrom (W (Proc.devRef .tc main_v2)) (senders (W (Proc.devRef .tc main_arg1)))
        (receivers (W (Proc.devRef .tc main_arg1))) (W (Proc.devRef .tc main_arg2)) := by
  dsimp only [hostOps1]; after_results_simp; rfl
theorem s1_v20 : StableHlo.after hostOps1 W (Proc.devRef .tc main_v20) = hopW0 (W (Proc.devRef .tc main_arg7)) := by
  dsimp only [hostOps1]; after_results; rfl
theorem s1_v23 : StableHlo.after hostOps1 W (Proc.devRef .tc main_v23)
    = shapeCast S1x128 (hopB0 (W (Proc.devRef .tc main_arg8))) shapeCasts_S128_S1x128 := by
  dsimp only [hostOps1]; after_results; rfl

set_option maxHeartbeats 2000000 in
theorem s2_v36 : StableHlo.after hostOps2 W (Proc.devRef .tc main_v36)
    = aggregateFrom (W (Proc.devRef .tc main_v24)) (W (Proc.devRef .tc main_v4)) (W (Proc.devRef .tc main_v6))
        (W (Proc.devRef .tc main_arg2)) := by
  dsimp only [hostOps2]; after_results_simp; rfl
theorem s2_v38 : StableHlo.after hostOps2 W (Proc.devRef .tc main_v38) = hopW1 (W (Proc.devRef .tc main_arg7)) := by
  dsimp only [hostOps2]; after_results; rfl
theorem s2_v41 : StableHlo.after hostOps2 W (Proc.devRef .tc main_v41)
    = shapeCast S1x128 (hopB1 (W (Proc.devRef .tc main_arg8))) shapeCasts_S128_S1x128 := by
  dsimp only [hostOps2]; after_results; rfl

set_option maxHeartbeats 2000000 in
theorem s3_v54 : StableHlo.after hostOps3 W (Proc.devRef .tc main_v54)
    = aggregateFrom (W (Proc.devRef .tc main_v42)) (W (Proc.devRef .tc main_v4)) (W (Proc.devRef .tc main_v6))
        (W (Proc.devRef .tc main_arg2)) := by
  dsimp only [hostOps3]; after_results_simp; rfl
theorem s3_v56 : StableHlo.after hostOps3 W (Proc.devRef .tc main_v56) = hopW2 (W (Proc.devRef .tc main_arg7)) := by
  dsimp only [hostOps3]; after_results; rfl
theorem s3_v59 : StableHlo.after hostOps3 W (Proc.devRef .tc main_v59)
    = shapeCast S1x128 (hopB2 (W (Proc.devRef .tc main_arg8))) shapeCasts_S128_S1x128 := by
  dsimp only [hostOps3]; after_results; rfl

theorem s4_v61 : StableHlo.after hostOps4 W (Proc.devRef .tc main_v61)
    = shapeCast S1x128 (W (Proc.devRef .tc main_arg10)) shapeCasts_S128_S1x128 := by
  dsimp only [hostOps4]; after_results; rfl
theorem s4_v62 : StableHlo.after hostOps4 W (Proc.devRef .tc main_v62)
    = shapeCast S1x40 (W (Proc.devRef .tc main_arg12)) shapeCasts_S40_S1x40 := by
  dsimp only [hostOps4]; after_results; rfl

end Cert.KernelIdeal.Between

end
-- ==== Proof.KernelNetwork.lean ====
/-
  The kernel program's result as a function of its arguments.

  The contents of the buffers are followed from the launch through the five stretches of host operations and the
  five regions. An argument array no stretch and no region writes is as launched at every boundary; the sender and
  receiver lists cut in stretch 1 are still there in stretches 2 and 3. The encoder region leaves the encoder's row
  map of the node features; each later stretch forms the aggregate of the previous state and the next region leaves
  the hop's row map of it; the decoder region leaves the decoder's row map of the last state. Each bias reaches its
  region recast as a one-row matrix, which is the same matrix as the bias broadcast along axis 1. So the result
  array ends at the reference's network of the argument arrays.
-/
import proofs.«134437_j58720792871767_1_alg».proof.Proof.Gen.KernelIdeal.Frame
import proofs.«134437_j58720792871767_1_alg».proof.Proof.EncoderBlocks
import proofs.«134437_j58720792871767_1_alg».proof.Proof.Hop1Blocks
import proofs.«134437_j58720792871767_1_alg».proof.Proof.Hop2Blocks
import proofs.«134437_j58720792871767_1_alg».proof.Proof.Hop3Blocks
import proofs.«134437_j58720792871767_1_alg».proof.Proof.DecoderBlocks
import proofs.«134437_j58720792871767_1_alg».proof.Proof.Between
import proofs.«134437_j58720792871767_1_alg».proof.Proof.RefLayers

noncomputable section

namespace Cert.KernelIdeal.Network

open Cert.KernelIdeal Cert.KernelIdeal.Gen Idealize.ShloMosaic Idealize.ShloMosaic.TcCoe Idealize.SL.Sem DenseRows
open Cert.ReferenceIdeal.Layers (aggregateFrom senders receivers hopW0 hopW1 hopW2 hopB0 hopB1 hopB2 biasRow outBiasRow
  encodedRows roundRows decodedRows networkRows network network_eq_rows)

variable (m : (ℓ : Loc nD τ sig) → Buf (Elt Ideal) ℓ) (ρ : Dev nD → PrngReg) (c : Dev nD)

/-! ## Buffers that are as launched (or as first cut) at each boundary -/

theorem at1_arg0 : W1 m ρ c (Proc.devRef .tc main_arg0) = m ((c : Thread nD τ).loc main_arg0) :=
  Between.s0_keep_arg0 (W0 m ρ c)
theorem at1_arg3 : W1 m ρ c (Proc.devRef .tc main_arg3) = m ((c : Thread nD τ).loc main_arg3) :=
  Between.s0_keep_arg3 (W0 m ρ c)
theorem at1_arg5 : W1 m ρ c (Proc.devRef .tc main_arg5) = m ((c : Thread nD τ).loc main_arg5) :=
  Between.s0_keep_arg5 (W0 m ρ c)
theorem at1_arg1 : W1 m ρ c (Proc.devRef .tc main_arg1) = m ((c : Thread nD τ).loc main_arg1) :=
  Between.s0_keep_arg1 (W0 m ρ c)
theorem at2_arg1 : W2 m ρ c (Proc.devRef .tc main_arg1) = m ((c : Thread nD τ).loc main_arg1) :=
  (W2_of_ne m ρ c main_arg1 (by decide)).trans (at1_arg1 m ρ c)
theorem at1_arg2 : W1 m ρ c (Proc.devRef .tc main_arg2) = m ((c : Thread nD τ).loc main_arg2) :=
  Between.s0_keep_arg2 (W0 m ρ c)
theorem at2_arg2 : W2 m ρ c (Proc.devRef .tc main_arg2) = m ((c : Thread nD τ).loc main_arg2) :=
  (W2_of_ne m ρ c main_arg2 (by decide)).trans (at1_arg2 m ρ c)
theorem at3_arg2 : W3 m ρ c (Proc.devRef .tc main_arg2) = m ((c : Thread nD τ).loc main_arg2) :=
  (Between.s1_keep_arg2 (W2 m ρ c)).trans (at2_arg2 m ρ c)
theorem at4_arg2 : W4 m ρ c (Proc.devRef .tc main_arg2) = m ((c : Thread nD τ).loc main_arg2) :=
  (W4_of_ne m ρ c main_arg2 (by decide)).trans (at3_arg2 m ρ c)
theorem at5_arg2 : W5 m ρ c (Proc.devRef .tc main_arg2) = m ((c : Thread nD τ).loc main_arg2) :=
  (Between.s2_keep_arg2 (W4 m ρ c)).trans (at4_arg2 m ρ c)
theorem at6_arg2 : W6 m ρ c (Proc.devRef .tc main_arg2) = m ((c : Thread nD τ).loc main_arg2) :=
  (W6_of_ne m ρ c main_arg2 (by decide)).trans (at5_arg2 m ρ c)
theorem at1_arg7 : W1 m ρ c (Proc.devRef .tc main_arg7) = m ((c : Thread nD τ).loc main_arg7) :=
  Between.s0_keep_arg7 (W0 m ρ c)
theorem at2_arg7 : W2 m ρ c (Proc.devRef .tc main_arg7) = m ((c : Thread nD τ).loc main_arg7) :=
  (W2_of_ne m ρ c main_arg7 (by decide)).trans (at1_arg7 m ρ c)
theorem at3_arg7 : W3 m ρ c (Proc.devRef .tc main_arg7) = m ((c : Thread nD τ).loc main_arg7) :=
  (Between.s1_keep_arg7 (W2 m ρ c)).trans (at2_arg7 m ρ c)
theorem at4_arg7 : W4 m ρ c (Proc.devRef .tc main_arg7) = m ((c : Thread nD τ).loc main_arg7) :=
  (W4_of_ne m ρ c main_arg7 (by decide)).trans (at3_arg7 m ρ c)
theorem at5_arg7 : W5 m ρ c (Proc.devRef .tc main_arg7) = m ((c : Thread nD τ).loc main_arg7) :=
  (Between.s2_keep_arg7 (W4 m ρ c)).trans (at4_arg7 m ρ c)
theorem at6_arg7 : W6 m ρ c (Proc.devRef .tc main_arg7) = m ((c : Thread nD τ).loc main_arg7) :=
  (W6_of_ne m ρ c main_arg7 (by decide)).trans (at5_arg7 m ρ c)
theorem at1_arg8 : W1 m ρ c (Proc.devRef .tc main_arg8) = m ((c : Thread nD τ).loc main_arg8) :=
  Between.s0_keep_arg8 (W0 m ρ c)
theorem at2_arg8 : W2 m ρ c (Proc.devRef .tc main_arg8) = m ((c : Thread nD τ).loc main_arg8) :=
  (W2_of_ne m ρ c main_arg8 (by decide)).trans (at1_arg8 m ρ c)
theorem at3_arg8 : W3 m ρ c (Proc.devRef .tc main_arg8) = m ((c : Thread nD τ).loc main_arg8) :=
  (Between.s1_keep_arg8 (W2 m ρ c)).trans (at2_arg8 m ρ c)
theorem at4_arg8 : W4 m ρ c (Proc.devRef .tc main_arg8) = m ((c : Thread nD τ).loc main_arg8) :=
  (W4_of_ne m ρ c main_arg8 (by decide)).trans (at3_arg8 m ρ c)
theorem at5_arg8 : W5 m ρ c (Proc.devRef .tc main_arg8) = m ((c : Thread nD τ).loc main_arg8) :=
  (Between.s2_keep_arg8 (W4 m ρ c)).trans (at4_arg8 m ρ c)
theorem at6_arg8 : W6 m ρ c (Proc.devRef .tc main_arg8) = m ((c : Thread nD τ).loc main_arg8) :=
  (W6_of_ne m ρ c main_arg8 (by decide)).trans (at5_arg8 m ρ c)
theorem at1_arg9 : W1 m ρ c (Proc.devRef .tc main_arg9) = m ((c : Thread nD τ).loc main_arg9) :=
  Between.s0_keep_arg9 (W0 m ρ c)
theorem at2_arg9 : W2 m ρ c (Proc.devRef .tc main_arg9) = m ((c : Thread nD τ).loc main_arg9) :=
  (W2_of_ne m ρ c main_arg9 (by decide)).trans (at1_arg9 m ρ c)
theorem at3_arg9 : W3 m ρ c (Proc.devRef .tc main_arg9) = m ((c : Thread nD τ).loc main_arg9) :=
  (Between.s1_keep_arg9 (W2 m ρ c)).trans (at2_arg9 m ρ c)
theorem at4_arg9 : W4 m ρ c (Proc.devRef .tc main_arg9) = m ((c : Thread nD τ).loc main_arg9) :=
  (W4_of_ne m ρ c main_arg9 (by decide)).trans (at3_arg9 m ρ c)
theorem at5_arg9 : W5 m ρ c (Proc.devRef .tc main_arg9) = m ((c : Thread nD τ).loc main_arg9) :=
  (Between.s2_keep_arg9 (W4 m ρ c)).trans (at4_arg9 m ρ c)
theorem at6_arg9 : W6 m ρ c (Proc.devRef .tc main_arg9) = m ((c : Thread nD τ).loc main_arg9) :=
  (W6_of_ne m ρ c main_arg9 (by decide)).trans (at5_arg9 m ρ c)
theorem at7_arg9 : W7 m ρ c (Proc.devRef .tc main_arg9) = m ((c : Thread nD τ).loc main_arg9) :=
  (Between.s3_keep_arg9 (W6 m ρ c)).trans (at6_arg9 m ρ c)
theorem at8_arg9 : W8 m ρ c (Proc.devRef .tc main_arg9) = m ((c : Thread nD τ).loc main_arg9) :=
  (W8_of_ne m ρ c main_arg9 (by decide)).trans (at7_arg9 m ρ c)
theorem at9_arg9 : W9 m ρ c (Proc.devRef .tc main_arg9) = m ((c : Thread nD τ).loc main_arg9) :=
  (Between.s4_keep_arg9 (W8 m ρ c)).trans (at8_arg9 m ρ c)
theorem at1_arg11 : W1 m ρ c (Proc.devRef .tc main_arg11) = m ((c : Thread nD τ).loc main_arg11) :=
  Between.s0_keep_arg11 (W0 m ρ c)
theorem at2_arg11 : W2 m ρ c (Proc.devRef .tc main_arg11) = m ((c : Thread nD τ).loc main_arg11) :=
  (W2_of_ne m ρ c main_arg11 (by decide)).trans (at1_arg11 m ρ c)
theorem at3_arg11 : W3 m ρ c (Proc.devRef .tc main_arg11) = m ((c : Thread nD τ).loc main_arg11) :=
  (Between.s1_keep_arg11 (W2 m ρ c)).trans (at2_arg11 m ρ c)
theorem at4_arg11 : W4 m ρ c (Proc.devRef .tc main_arg11) = m ((c : Thread nD τ).loc main_arg11) :=
  (W4_of_ne m ρ c main_arg11 (by decide)).trans (at3_arg11 m ρ c)
theorem at5_arg11 : W5 m ρ c (Proc.devRef .tc main_arg11) = m ((c : Thread nD τ).loc main_arg11) :=
  (Between.s2_keep_arg11 (W4 m ρ c)).trans (at4_arg11 m ρ c)
theorem at6_arg11 : W6 m ρ c (Proc.devRef .tc main_arg11) = m ((c : Thread nD τ).loc main_arg11) :=
  (W6_of_ne m ρ c main_arg11 (by decide)).trans (at5_arg11 m ρ c)
theorem at7_arg11 : W7 m ρ c (Proc.devRef .tc main_arg11) = m ((c : Thread nD τ).loc main_arg11) :=
  (Between.s3_keep_arg11 (W6 m ρ c)).trans (at6_arg11 m ρ c)
theorem at8_arg11 : W8 m ρ c (Proc.devRef .tc main_arg11) = m ((c : Thread nD τ).loc main_arg11) :=
  (W8_of_ne m ρ c main_arg11 (by decide)).trans (at7_arg11 m ρ c)
theorem at9_arg11 : W9 m ρ c (Proc.devRef .tc main_arg11) = m ((c : Thread nD τ).loc main_arg11) :=
  (Between.s4_keep_arg11 (W8 m ρ c)).trans (at8_arg11 m ρ c)
theorem at1_arg10 : W1 m ρ c (Proc.devRef .tc main_arg10) = m ((c : Thread nD τ).loc main_arg10) :=
  Between.s0_keep_arg10 (W0 m ρ c)
theorem at2_arg10 : W2 m ρ c (Proc.devRef .tc main_arg10) = m ((c : Thread nD τ).loc main_arg10) :=
  (W2_of_ne m ρ c main_arg10 (by decide)).trans (at1_arg10 m ρ c)
theorem at3_arg10 : W3 m ρ c (Proc.devRef .tc main_arg10) = m ((c : Thread nD τ).loc main_arg10) :=
  (Between.s1_keep_arg10 (W2 m ρ c)).trans (at2_arg10 m ρ c)
theorem at4_arg10 : W4 m ρ c (Proc.devRef .tc main_arg10) = m ((c : Thread nD τ).loc main_arg10) :=
  (W4_of_ne m ρ c main_arg10 (by decide)).trans (at3_arg10 m ρ c)
theorem at5_arg10 : W5 m ρ c (Proc.devRef .tc main_arg10) = m ((c : Thread nD τ).loc main_arg10) :=
  (Between.s2_keep_arg10 (W4 m ρ c)).trans (at4_arg10 m ρ c)
theorem at6_arg10 : W6 m ρ c (Proc.devRef .tc main_arg10) = m ((c : Thread nD τ).loc main_arg10) :=
  (W6_of_ne m ρ c main_arg10 (by decide)).trans (at5_arg10 m ρ c)
theorem at7_arg10 : W7 m ρ c (Proc.devRef .tc main_arg10) = m ((c : Thread nD τ).loc main_arg10) :=
  (Between.s3_keep_arg10 (W6 m ρ c)).trans (at6_arg10 m ρ c)
theorem at8_arg10 : W8 m ρ c (Proc.devRef .tc main_arg10) = m ((c : Thread nD τ).loc main_arg10) :=
  (W8_of_ne m ρ c main_arg10 (by decide)).trans (at7_arg10 m ρ c)
theorem at1_arg12 : W1 m ρ c (Proc.devRef .tc main_arg12) = m ((c : Thread nD τ).loc main_arg12) :=
  Between.s0_keep_arg12 (W0 m ρ c)
theorem at2_arg12 : W2 m ρ c (Proc.devRef .tc main_arg12) = m ((c : Thread nD τ).loc main_arg12) :=
  (W2_of_ne m ρ c main_arg12 (by decide)).trans (at1_arg12 m ρ c)
theorem at3_arg12 : W3 m ρ c (Proc.devRef .tc main_arg12) = m ((c : Thread nD τ).loc main_arg12) :=
  (Between.s1_keep_arg12 (W2 m ρ c)).trans (at2_arg12 m ρ c)
theorem at4_arg12 : W4 m ρ c (Proc.devRef .tc main_arg12) = m ((c : Thread nD τ).loc main_arg12) :=
  (W4_of_ne m ρ c main_arg12 (by decide)).trans (at3_arg12 m ρ c)
theorem at5_arg12 : W5 m ρ c (Proc.devRef .tc main_arg12) = m ((c : Thread nD τ).loc main_arg12) :=
  (Between.s2_keep_arg12 (W4 m ρ c)).trans (at4_arg12 m ρ c)
theorem at6_arg12 : W6 m ρ c (Proc.devRef .tc main_arg12) = m ((c : Thread nD τ).loc main_arg12) :=
  (W6_of_ne m ρ c main_arg12 (by decide)).trans (at5_arg12 m ρ c)
theorem at7_arg12 : W7 m ρ c (Proc.devRef .tc main_arg12) = m ((c : Thread nD τ).loc main_arg12) :=
  (Between.s3_keep_arg12 (W6 m ρ c)).trans (at6_arg12 m ρ c)
theorem at8_arg12 : W8 m ρ c (Proc.devRef .tc main_arg12) = m ((c : Thread nD τ).loc main_arg12) :=
  (W8_of_ne m ρ c main_arg12 (by decide)).trans (at7_arg12 m ρ c)
theorem at3_v4 : W3 m ρ c (Proc.devRef .tc main_v4) = senders (m ((c : Thread nD τ).loc main_arg1)) :=
  (Between.s1_v4 (W2 m ρ c)).trans (congrArg senders (at2_arg1 m ρ c))
theorem at4_v4 : W4 m ρ c (Proc.devRef .tc main_v4) = senders (m ((c : Thread nD τ).loc main_arg1)) :=
  (W4_of_ne m ρ c main_v4 (by decide)).trans (at3_v4 m ρ c)
theorem at5_v4 : W5 m ρ c (Proc.devRef .tc main_v4) = senders (m ((c : Thread nD τ).loc main_arg1)) :=
  (Between.s2_keep_v4 (W4 m ρ c)).trans (at4_v4 m ρ c)
theorem at6_v4 : W6 m ρ c (Proc.devRef .tc main_v4) = senders (m ((c : Thread nD τ).loc main_arg1)) :=
  (W6_of_ne m ρ c main_v4 (by decide)).trans (at5_v4 m ρ c)
theorem at3_v6 : W3 m ρ c (Proc.devRef .tc main_v6) = receivers (m ((c : Thread nD τ).loc main_arg1)) :=
  (Between.s1_v6 (W2 m ρ c)).trans (congrArg receivers (at2_arg1 m ρ c))
theorem at4_v6 : W4 m ρ c (Proc.devRef .tc main_v6) = receivers (m ((c : Thread nD τ).loc main_arg1)) :=
  (W4_of_ne m ρ c main_v6 (by decide)).trans (at3_v6 m ρ c)
theorem at5_v6 : W5 m ρ c (Proc.devRef .tc main_v6) = receivers (m ((c : Thread nD τ).loc main_arg1)) :=
  (Between.s2_keep_v6 (W4 m ρ c)).trans (at4_v6 m ρ c)
theorem at6_v6 : W6 m ρ c (Proc.devRef .tc main_v6) = receivers (m ((c : Thread nD τ).loc main_arg1)) :=
  (W6_of_ne m ρ c main_v6 (by decide)).trans (at5_v6 m ρ c)

/-! ## The recast biases -/

theorem at1_v0 : W1 m ρ c (Proc.devRef .tc main_v0) = shapeCast S1x128 (m ((c : Thread nD τ).loc main_arg4)) shapeCasts_S128_S1x128 :=
  Between.s0_v0 (W0 m ρ c)
theorem at1_v1 : W1 m ρ c (Proc.devRef .tc main_v1) = shapeCast S1x128 (m ((c : Thread nD τ).loc main_arg6)) shapeCasts_S128_S1x128 :=
  Between.s0_v1 (W0 m ρ c)

/-- A bias recast as a one-row matrix is the bias broadcast along axis 1. -/
theorem recast_eq (b : Cert.ReferenceIdeal.Layers.Bias) : shapeCast S1x128 b shapeCasts_S128_S1x128 = biasRow b :=
  shapeCast_row_eq_broadcastInDim (n := 128) b shapeCasts_S128_S1x128 Cert.ReferenceIdeal.Facts₀.bcast_S128_S1x128_1
theorem recast40_eq (b : Cert.ReferenceIdeal.Layers.OutBias) : shapeCast S1x40 b shapeCasts_S40_S1x40 = outBiasRow b :=
  shapeCast_row_eq_broadcastInDim (n := 40) b shapeCasts_S40_S1x40 Cert.ReferenceIdeal.Facts₀.bcast_S40_S1x40_1

/-! ## The states -/

/-- After the encoder region. -/
def state0 : Cert.ReferenceIdeal.Layers.Nodes :=
  encodedRows (m ((c : Thread nD τ).loc main_arg0)) (m ((c : Thread nD τ).loc main_arg3)) (biasRow (m ((c : Thread nD τ).loc main_arg4))) (m ((c : Thread nD τ).loc main_arg5)) (biasRow (m ((c : Thread nD τ).loc main_arg6)))
/-- After hop j's region. -/
def state1 : Cert.ReferenceIdeal.Layers.Nodes :=
  roundRows (state0 m c) (senders (m ((c : Thread nD τ).loc main_arg1))) (receivers (m ((c : Thread nD τ).loc main_arg1))) (m ((c : Thread nD τ).loc main_arg2)) (hopW0 (m ((c : Thread nD τ).loc main_arg7))) (biasRow (hopB0 (m ((c : Thread nD τ).loc main_arg8))))
def state2 : Cert.ReferenceIdeal.Layers.Nodes :=
  roundRows (state1 m c) (senders (m ((c : Thread nD τ).loc main_arg1))) (receivers (m ((c : Thread nD τ).loc main_arg1))) (m ((c : Thread nD τ).loc main_arg2)) (hopW1 (m ((c : Thread nD τ).loc main_arg7))) (biasRow (hopB1 (m ((c : Thread nD τ).loc main_arg8))))
def state3 : Cert.ReferenceIdeal.Layers.Nodes :=
  roundRows (state2 m c) (senders (m ((c : Thread nD τ).loc main_arg1))) (receivers (m ((c : Thread nD τ).loc main_arg1))) (m ((c : Thread nD τ).loc main_arg2)) (hopW2 (m ((c : Thread nD τ).loc main_arg7))) (biasRow (hopB2 (m ((c : Thread nD τ).loc main_arg8))))

theorem at2_v2 : W2 m ρ c (Proc.devRef .tc main_v2) = state0 m c := by
  refine (W2_arr m ρ c 5).trans ((EncoderBlocks.final (V1 m ρ) c).trans ?_)
  show onRows (encoderRow (W1 m ρ c (Proc.devRef .tc main_arg3)) (W1 m ρ c (Proc.devRef .tc main_v0)) (W1 m ρ c (Proc.devRef .tc main_arg5))
    (W1 m ρ c (Proc.devRef .tc main_v1))) (W1 m ρ c (Proc.devRef .tc main_arg0)) = _
  rw [at1_arg3, at1_v0, at1_arg5, at1_v1, at1_arg0, recast_eq, recast_eq]
  rfl

theorem at4_v24 : W4 m ρ c (Proc.devRef .tc main_v24) = state1 m c := by
  refine (W4_arr m ρ c 3).trans ((Hop1Blocks.final (V3 m ρ) c).trans ?_)
  show onRows (hopRow (W3 m ρ c (Proc.devRef .tc main_v20)) (W3 m ρ c (Proc.devRef .tc main_v23))) (W3 m ρ c (Proc.devRef .tc main_v18)) = _
  rw [show W3 m ρ c (Proc.devRef .tc main_v20) = _ from Between.s1_v20 (W2 m ρ c),
    show W3 m ρ c (Proc.devRef .tc main_v23) = _ from Between.s1_v23 (W2 m ρ c),
    show W3 m ρ c (Proc.devRef .tc main_v18) = _ from Between.s1_v18 (W2 m ρ c),
    at2_v2, at2_arg1, at2_arg2, at2_arg7, at2_arg8, recast_eq]
  rfl

theorem at6_v42 : W6 m ρ c (Proc.devRef .tc main_v42) = state2 m c := by
  refine (W6_arr m ρ c 3).trans ((Hop2Blocks.final (V5 m ρ) c).trans ?_)
  show onRows (hopRow (W5 m ρ c (Proc.devRef .tc main_v38)) (W5 m ρ c (Proc.devRef .tc main_v41))) (W5 m ρ c (Proc.devRef .tc main_v36)) = _
  rw [show W5 m ρ c (Proc.devRef .tc main_v38) = _ from Between.s2_v38 (W4 m ρ c),
    show W5 m ρ c (Proc.devRef .tc main_v41) = _ from Between.s2_v41 (W4 m ρ c),
    show W5 m ρ c (Proc.devRef .tc main_v36) = _ from Between.s2_v36 (W4 m ρ c),
    at4_v24, at4_v4, at4_v6, at4_arg2, at4_arg7, at4_arg8, recast_eq]
  rfl

theorem at8_v60 : W8 m ρ c (Proc.devRef .tc main_v60) = state3 m c := by
  refine (W8_arr m ρ c 3).trans ((Hop3Blocks.final (V7 m ρ) c).trans ?_)
  show onRows (hopRow (W7 m ρ c (Proc.devRef .tc main_v56)) (W7 m ρ c (Proc.devRef .tc main_v59))) (W7 m ρ c (Proc.devRef .tc main_v54)) = _
  rw [show W7 m ρ c (Proc.devRef .tc main_v56) = _ from Between.s3_v56 (W6 m ρ c),
    show W7 m ρ c (Proc.devRef .tc main_v59) = _ from Between.s3_v59 (W6 m ρ c),
    show W7 m ρ c (Proc.devRef .tc main_v54) = _ from Between.s3_v54 (W6 m ρ c),
    at6_v42, at6_v4, at6_v6, at6_arg2, at6_arg7, at6_arg8, recast_eq]
  rfl

/-- The result array at the last boundary is the reference's network of the argument arrays. -/
theorem result_eq : W10 m ρ c (Proc.devRef .tc main_v63)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W10_arr m ρ c 5).trans ((DecoderBlocks.final (V9 m ρ) c).trans ?_)
  show onRows (decoderRow (W9 m ρ c (Proc.devRef .tc main_arg9)) (W9 m ρ c (Proc.devRef .tc main_v61)) (W9 m ρ c (Proc.devRef .tc main_arg11))
    (W9 m ρ c (Proc.devRef .tc main_v62))) (W9 m ρ c (Proc.devRef .tc main_v60)) = _
  rw [show W9 m ρ c (Proc.devRef .tc main_v61) = _ from Between.s4_v61 (W8 m ρ c),
    show W9 m ρ c (Proc.devRef .tc main_v62) = _ from Between.s4_v62 (W8 m ρ c),
    show W9 m ρ c (Proc.devRef .tc main_v60) = _ from (Between.s4_keep_v60 (W8 m ρ c)).trans (at8_v60 m ρ c),
    at9_arg9, at9_arg11, at8_arg10, at8_arg12, recast_eq, recast40_eq, network_eq_rows]
  rfl

end Cert.KernelIdeal.Network

end
-- ==== Proof.lean ====
/-
  A three-round graph network on 100000 nodes and 1600000 edges: the kernel program against its reference.

  Both programs compute, on extended reals: an encoder (two dense layers, each  row·W + b  clamped below at zero);
  three rounds, each gathering the sender's node state along every edge, scaling it by the edge's weight, summing the
  messages into the receiver's row, then one clamped dense layer of that aggregate plus the aggregate itself; and a
  decoder (a clamped dense layer, then a plain one) giving 40 scores per node. The reference does the dense stages
  on whole 100000-row arrays. The kernel program does them in five regions of 20 grid points, each point on a block
  of 5000 consecutive rows, with the gather and the sum left to the same host operations the reference uses.

  A dense stage is a function of one row applied to every row, so block t of a stage's result is that function on
  rows 5000·t … 5000·t + 4999 of its input, and the 20 blocks tile the array: each region leaves exactly the
  reference's stage of the array it was given. A change of float format is the identity here, a product accumulated
  into a zero matrix is the product, and a bias recast as a one-row matrix is the bias broadcast as one; no sum is
  reordered and no law that fails at an infinity is used, so the precondition is never opened. The aggregate is
  one function that both programs apply to equal arrays. Hence both runs end with the result array at the same
  network of the argument arrays, and the arguments unchanged.

  The three frames are the generated ones (the reference's is its generated run with the result dropped); the
  idealization rewrote nothing, so there is nothing to preserve.
-/
import proofs.«134437_j58720792871767_1_alg».proof.Defs
import proofs.«134437_j58720792871767_1_alg».proof.Proof.Gen.Kernel
import proofs.«134437_j58720792871767_1_alg».proof.Proof.Gen.Kernel.Skeleton
import proofs.«134437_j58720792871767_1_alg».proof.Proof.Gen.Kernel.Launch
import proofs.«134437_j58720792871767_1_alg».proof.Proof.Gen.Kernel.Points
import proofs.«134437_j58720792871767_1_alg».proof.Proof.Gen.Kernel.Frame
import proofs.«134437_j58720792871767_1_alg».proof.Proof.Gen.KernelIdeal
import proofs.«134437_j58720792871767_1_alg».proof.Proof.Gen.KernelIdeal.Skeleton
import proofs.«134437_j58720792871767_1_alg».proof.Proof.Gen.KernelIdeal.Launch
import proofs.«134437_j58720792871767_1_alg».proof.Proof.Gen.KernelIdeal.Points
import proofs.«134437_j58720792871767_1_alg».proof.Proof.Gen.KernelIdeal.Frame
import proofs.«134437_j58720792871767_1_alg».proof.Proof.Gen.ReferenceIdeal
import proofs.«134437_j58720792871767_1_alg».proof.Proof.Gen.ReferenceIdeal.Run
import proofs.«134437_j58720792871767_1_alg».proof.Proof.Gen.Pre_finite_inputs
import proofs.«134437_j58720792871767_1_alg».proof.Proof.KernelRun
import proofs.«134437_j58720792871767_1_alg».proof.Proof.KernelNetwork
import proofs.«134437_j58720792871767_1_alg».proof.Proof.RefLayers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the network of the kernel program's argument arrays. -/
theorem algebraic : Cert.algebraic_KernelIdeal_ReferenceIdeal := by
  intro m ρ m' ρ' _ hagree
  refine ⟨fun c => Cert.ReferenceIdeal.Layers.network
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Network.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Layers.result_eq, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
